-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S9216x1024 : S_.BroadcastsInDim S9216x1024 (![] : Fin 0 → Fin S9216x1024.rank)
  reducesTo_S9216x1024_S_d0_1 : S9216x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S9216x1024 .f32) (main_arg2 : FVec F S1024x1024 .f32) (main_arg3 : FVec F S1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S9216x1024 .f32 := Host.absf main_arg1
  let main_cst_0 : FVec F S_ .f32 := constant S_ .f32 0x7F800000#32
  let main_v5 : FVec F S9216x1024 .f32 := broadcastInDim S9216x1024 ![] bcast_S_S9216x1024 main_cst_0
  let main_v6 : IVec S9216x1024 1 := cmpf .olt main_v4 main_v5
  let main_c_1 : IVec S_ 1 := constantI S_ 1 1#1
  let main_v7 : IVec S_ 1 := (fun x v => Host.reduce IntOp.andi x v reducesTo_S9216x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S1024x9216 : Shape := ⟨2, ![1024, 9216]⟩
abbrev S1x512x1024 : Shape := ⟨3, ![1, 512, 1024]⟩
abbrev S512x1024 : Shape := ⟨2, ![512, 1024]⟩
abbrev S4x32x1024 : Shape := ⟨3, ![4, 32, 1024]⟩
abbrev S4x4160x1024 : Shape := ⟨3, ![4, 4160, 1024]⟩
abbrev S1x1024 : Shape := ⟨2, ![1, 1024]⟩
abbrev S1x256x1024 : Shape := ⟨3, ![1, 256, 1024]⟩
abbrev S320x1024 : Shape := ⟨2, ![320, 1024]⟩
abbrev S_ : Shape := ⟨0, ![]⟩
abbrev S1x320x1024 : Shape := ⟨3, ![1, 320, 1024]⟩
abbrev S256x1024 : Shape := ⟨2, ![256, 1024]⟩
abbrev S256x9216 : Shape := ⟨2, ![256, 9216]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S9216x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x9216, .f32⟩
  | .hbm, ⟨8, _⟩ => ⟨S1024x9216, .bf16⟩
  | .hbm, ⟨9, _⟩ => ⟨S4x4096x1024, .f32⟩
  | .hbm, ⟨10, _⟩ => ⟨S4x32x1024, .f32⟩
  | .hbm, ⟨11, _⟩ => ⟨S4x32x1024, .f32⟩
  | .hbm, ⟨12, _⟩ => ⟨S4x4160x1024, .f32⟩
  | .hbm, ⟨13, _⟩ => ⟨S1x1024, .f32⟩
  | .hbm, ⟨14, _⟩ => ⟨S1x1024, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x256x1024, .f32⟩
  | .local _ .vmem, ⟨6, _⟩ => ⟨S1x256x1024, .f32⟩
  | .local _ .vmem, ⟨7, _⟩ => ⟨S1024x9216, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S320x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  v0
def k1_off1 (i : grid1.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let v1 : BitVec 32 := v0
  let c0_i32 : BitVec 32 := 0#32
  ![arg0.toNat, v1.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x9216 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  bitsLt_bf16_f32 : FTy.bits .bf16 < FTy.bits .f32
  transposes_S9216x1024_S1024x9216_1_0 : S9216x1024.Transposes [1, 0] S1024x9216
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  slices_S4x4096x1024_S4x32x1024_0_4064_0 : S4x4096x1024.Slices ![0, 4064, 0] S4x32x1024
  slices_S4x4096x1024_S4x32x1024_0_0_0 : S4x4096x1024.Slices ![0, 0, 0] S4x32x1024
  concatenates_S4x32x1024_S4x4096x1024_S4x32x1024_S4x4160x1024_d1 : Shape.Concatenates [S4x32x1024, S4x4096x1024, S4x32x1024] S4x4160x1024 1
  shapeCasts_S1024_S1x1024 : S1024.ShapeCasts S1x1024
  squeezes_S1x320x1024_S320x1024 : S1x320x1024.Squeezes S320x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x9216_S1024x9216_0_0 : ∀ a, (![0, 0] : Fin 2 → Nat) a + S1024x9216.size a ≤ S1024x9216.size a
  h_S1024x9216 : 0 < S1024x9216.numel
  shapeCasts_S1024x9216_S1024x9216 : S1024x9216.ShapeCasts S1024x9216
  inb_S320x1024_S320x1024_0_0 : ∀ a, (![0, 0] : Fin 2 → Nat) a + S320x1024.size a ≤ S320x1024.size a
  h_S320x1024 : 0 < S320x1024.numel
  slices_S320x1024_o32_0_S256x1024 : S320x1024.Slices ![32, 0] S256x1024
  slices_S256x9216_o0_0_S256x1024 : S256x9216.Slices ![0, 0] S256x1024
  slices_S320x1024_o0_0_S256x1024 : S320x1024.Slices ![0, 0] S256x1024
  slices_S256x9216_o0_1024_S256x1024 : S256x9216.Slices ![0, 1024] S256x1024
  slices_S320x1024_o16_0_S256x1024 : S320x1024.Slices ![16, 0] S256x1024
  slices_S256x9216_o0_2048_S256x1024 : S256x9216.Slices ![0, 2048] S256x1024
  slices_S320x1024_o28_0_S256x1024 : S320x1024.Slices ![28, 0] S256x1024
  slices_S256x9216_o0_3072_S256x1024 : S256x9216.Slices ![0, 3072] S256x1024
  slices_S320x1024_o31_0_S256x1024 : S320x1024.Slices ![31, 0] S256x1024
  slices_S256x9216_o0_4096_S256x1024 : S256x9216.Slices ![0, 4096] S256x1024
  slices_S320x1024_o33_0_S256x1024 : S320x1024.Slices ![33, 0] S256x1024
  slices_S256x9216_o0_5120_S256x1024 : S256x9216.Slices ![0, 5120] S256x1024
  slices_S320x1024_o36_0_S256x1024 : S320x1024.Slices ![36, 0] S256x1024
  slices_S256x9216_o0_6144_S256x1024 : S256x9216.Slices ![0, 6144] S256x1024
  slices_S320x1024_o48_0_S256x1024 : S320x1024.Slices ![48, 0] S256x1024
  slices_S256x9216_o0_7168_S256x1024 : S256x9216.Slices ![0, 7168] S256x1024
  slices_S320x1024_o64_0_S256x1024 : S320x1024.Slices ![64, 0] S256x1024
  slices_S256x9216_o0_8192_S256x1024 : S256x9216.Slices ![0, 8192] S256x1024
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S256x1024 : S1x1024.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x9216_S256x9216_1_0_0_1_n_n_wf : DotDims.WF S256x1024 S1024x9216 S256x9216 [1] [0] [0] [1] [] []
  hcc1_scratch1 : 12 + S_.numel ≤ 13
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .f32 = 32 ∨ (Rect.block (s := S4x4096x1024) S1x512x1024.size (cc0_transform_2 i) (hinb0_2 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S1x320x1024.size a ≤ S4x4160x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .f32 = 32 ∨ (Rect.block (s := S4x4096x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S1024x9216.size a ≤ S1024x9216.size a
  hwx1_1 : ∀ i : grid1.Coords, EltTy.bits .bf16 = 32 ∨ (Rect.block (s := S1024x9216) S1024x9216.size (cc1_transform_2 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_3 i = cc1_transform_3 i'
  hinb1_2 : ∀ (i : grid1.Coords) a, (cc1_transform_3 i a + 1) * S1x1024.size a ≤ S1x1024.size a
  hwx1_2 : ∀ i : grid1.Coords, EltTy.bits .f32 = 32 ∨ (Rect.block (s := S1x1024) S1x1024.size (cc1_transform_3 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_4 i = cc1_transform_4 i'
  hinb1_3 : ∀ (i : grid1.Coords) a, (cc1_transform_4 i a + 1) * S1x1024.size a ≤ S1x1024.size a
  hwx1_3 : ∀ i : grid1.Coords, EltTy.bits .f32 = 32 ∨ (Rect.block (s := S1x1024) S1x1024.size (cc1_transform_4 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_5 i = cc1_transform_5 i'
  hinb1_4 : ∀ (i : grid1.Coords) a, (cc1_transform_5 i a + 1) * S1x256x1024.size a ≤ S4x4096x1024.size a
  hwx1_4 : ∀ i : grid1.Coords, EltTy.bits .f32 = 32 ∨ (Rect.block (s := S4x4096x1024) S1x256x1024.size (cc1_transform_5 i) (hinb1_4 i)).WholeWords (EltTy.packing .f32)

variable [Facts₀]

abbrev cc1_scratch1 : DmaSems sig S_ := SemArray.consecutive 12 S_ hcc1_scratch1
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x9216_S256x9216_1_0_0_1_n_n : DotDims S256x1024 S1024x9216 S256x9216 where
  lhsContracting := [1]
  rhsContracting := [0]
  lhsNonContracting := [0]
  rhsNonContracting := [1]
  lhsBatch := []
  rhsBatch := []
  wf := dot_S256x1024_S1024x9216_S256x9216_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x9216.size cc1_transform_2 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_3 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_4 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x256x1024.size cc1_transform_5 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S4x32x1024 : Shape := ⟨3, ![4, 32, 1024]⟩
abbrev S4x4064x1024 : Shape := ⟨3, ![4, 4064, 1024]⟩
abbrev S4x16x1024 : Shape := ⟨3, ![4, 16, 1024]⟩
abbrev S4x4080x1024 : Shape := ⟨3, ![4, 4080, 1024]⟩
abbrev S4x4x1024 : Shape := ⟨3, ![4, 4, 1024]⟩
abbrev S4x4092x1024 : Shape := ⟨3, ![4, 4092, 1024]⟩
abbrev S4x1x1024 : Shape := ⟨3, ![4, 1, 1024]⟩
abbrev S4x4095x1024 : Shape := ⟨3, ![4, 4095, 1024]⟩
abbrev S4x4096x1x1024 : Shape := ⟨4, ![4, 4096, 1, 1024]⟩
abbrev S4x4096x9x1024 : Shape := ⟨4, ![4, 4096, 9, 1024]⟩
abbrev S4x4096x9216 : Shape := ⟨3, ![4, 4096, 9216]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S9216x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x4096x1024, .f32⟩
  | .hbm, ⟨6, _⟩ => ⟨S4x32x1024, .f32⟩
  | .hbm, ⟨7, _⟩ => ⟨S4x4064x1024, .f32⟩
  | .hbm, ⟨8, _⟩ => ⟨S4x4096x1024, .f32⟩
  | .hbm, ⟨9, _⟩ => ⟨S4x16x1024, .f32⟩
  | .hbm, ⟨10, _⟩ => ⟨S4x4080x1024, .f32⟩
  | .hbm, ⟨11, _⟩ => ⟨S4x4096x1024, .f32⟩
  | .hbm, ⟨12, _⟩ => ⟨S4x4x1024, .f32⟩
  | .hbm, ⟨13, _⟩ => ⟨S4x4092x1024, .f32⟩
  | .hbm, ⟨14, _⟩ => ⟨S4x4096x1024, .f32⟩
  | .hbm, ⟨15, _⟩ => ⟨S4x1x1024, .f32⟩
  | .hbm, ⟨16, _⟩ => ⟨S4x4095x1024, .f32⟩
  | .hbm, ⟨17, _⟩ => ⟨S4x4096x1024, .f32⟩
  | .hbm, ⟨18, _⟩ => ⟨S4x4095x1024, .f32⟩
  | .hbm, ⟨19, _⟩ => ⟨S4x1x1024, .f32⟩
  | .hbm, ⟨20, _⟩ => ⟨S4x4096x1024, .f32⟩
  | .hbm, ⟨21, _⟩ => ⟨S4x4092x1024, .f32⟩
  | .hbm, ⟨22, _⟩ => ⟨S4x4x1024, .f32⟩
  | .hbm, ⟨23, _⟩ => ⟨S4x4096x1024, .f32⟩
  | .hbm, ⟨24, _⟩ => ⟨S4x4080x1024, .f32⟩
  | .hbm, ⟨25, _⟩ => ⟨S4x16x1024, .f32⟩
  | .hbm, ⟨26, _⟩ => ⟨S4x4096x1024, .f32⟩
  | .hbm, ⟨27, _⟩ => ⟨S4x4064x1024, .f32⟩
  | .hbm, ⟨28, _⟩ => ⟨S4x32x1024, .f32⟩
  | .hbm, ⟨29, _⟩ => ⟨S4x4096x1024, .f32⟩
  | .hbm, ⟨30, _⟩ => ⟨S4x4096x1x1024, .f32⟩
  | .hbm, ⟨31, _⟩ => ⟨S4x4096x1x1024, .f32⟩
  | .hbm, ⟨32, _⟩ => ⟨S4x4096x1x1024, .f32⟩
  | .hbm, ⟨33, _⟩ => ⟨S4x4096x1x1024, .f32⟩
  | .hbm, ⟨34, _⟩ => ⟨S4x4096x1x1024, .f32⟩
  | .hbm, ⟨35, _⟩ => ⟨S4x4096x1x1024, .f32⟩
  | .hbm, ⟨36, _⟩ => ⟨S4x4096x1x1024, .f32⟩
  | .hbm, ⟨37, _⟩ => ⟨S4x4096x1x1024, .f32⟩
  | .hbm, ⟨38, _⟩ => ⟨S4x4096x1x1024, .f32⟩
  | .hbm, ⟨39, _⟩ => ⟨S4x4096x9x1024, .f32⟩
  | .hbm, ⟨40, _⟩ => ⟨S4x4096x9216, .f32⟩
  | .hbm, ⟨41, _⟩ => ⟨S4x4096x9216, .f32⟩
  | .hbm, ⟨42, _⟩ => ⟨S4x4096x9216, .f32⟩
  | .hbm, ⟨43, _⟩ => ⟨S_, .f32⟩
  | .hbm, ⟨44, _⟩ => ⟨S4x4096x9216, .f32⟩
  | .hbm, ⟨45, _⟩ => ⟨S4x4096x9216, .f32⟩
  | .hbm, ⟨46, _⟩ => ⟨S_, .f32⟩
  | .hbm, ⟨47, _⟩ => ⟨S4x4096x9216, .f32⟩
  | .hbm, ⟨48, _⟩ => ⟨S4x4096x9216, .f32⟩
  | .hbm, ⟨49, _⟩ => ⟨S4x4096x9x1024, .f32⟩
  | .hbm, ⟨50, _⟩ => ⟨S4x4096x9x1024, .f32⟩
  | .hbm, ⟨51, _⟩ => ⟨S_, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_call2_v0 : Ref sig .tc := ⟨.hbm, 12, rfl⟩
abbrev main_call2_v1 : Ref sig .tc := ⟨.hbm, 13, rfl⟩
abbrev main_v3 : Ref sig .tc := ⟨.hbm, 14, rfl⟩
abbrev main_call3_v0 : Ref sig .tc := ⟨.hbm, 15, rfl⟩
abbrev main_call3_v1 : Ref sig .tc := ⟨.hbm, 16, rfl⟩
abbrev main_v4 : Ref sig .tc := ⟨.hbm, 17, rfl⟩
abbrev main_call4_v0 : Ref sig .tc := ⟨.hbm, 18, rfl⟩
abbrev main_call4_v1 : Ref sig .tc := ⟨.hbm, 19, rfl⟩
abbrev main_v5 : Ref sig .tc := ⟨.hbm, 20, rfl⟩
abbrev main_call5_v0 : Ref sig .tc := ⟨.hbm, 21, rfl⟩
abbrev main_call5_v1 : Ref sig .tc := ⟨.hbm, 22, rfl⟩
abbrev main_v6 : Ref sig .tc := ⟨.hbm, 23, rfl⟩
abbrev main_call6_v0 : Ref sig .tc := ⟨.hbm, 24, rfl⟩
abbrev main_call6_v1 : Ref sig .tc := ⟨.hbm, 25, rfl⟩
abbrev main_v7 : Ref sig .tc := ⟨.hbm, 26, rfl⟩
abbrev main_call7_v0 : Ref sig .tc := ⟨.hbm, 27, rfl⟩
abbrev main_call7_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S4x4096x1024_S4x32x1024_0_4064_0 : S4x4096x1024.Slices ![0, 4064, 0] S4x32x1024
  slices_S4x4096x1024_S4x4064x1024_0_0_0 : S4x4096x1024.Slices ![0, 0, 0] S4x4064x1024
  concatenates_S4x32x1024_S4x4064x1024_S4x4096x1024_d1 : Shape.Concatenates [S4x32x1024, S4x4064x1024] S4x4096x1024 1
  slices_S4x4096x1024_S4x16x1024_0_4080_0 : S4x4096x1024.Slices ![0, 4080, 0] S4x16x1024
  slices_S4x4096x1024_S4x4080x1024_0_0_0 : S4x4096x1024.Slices ![0, 0, 0] S4x4080x1024
  concatenates_S4x16x1024_S4x4080x1024_S4x4096x1024_d1 : Shape.Concatenates [S4x16x1024, S4x4080x1024] S4x4096x1024 1
  slices_S4x4096x1024_S4x4x1024_0_4092_0 : S4x4096x1024.Slices ![0, 4092, 0] S4x4x1024
  slices_S4x4096x1024_S4x4092x1024_0_0_0 : S4x4096x1024.Slices ![0, 0, 0] S4x4092x1024
  concatenates_S4x4x1024_S4x4092x1024_S4x4096x1024_d1 : Shape.Concatenates [S4x4x1024, S4x4092x1024] S4x4096x1024 1
  slices_S4x4096x1024_S4x1x1024_0_4095_0 : S4x4096x1024.Slices ![0, 4095, 0] S4x1x1024
  slices_S4x4096x1024_S4x4095x1024_0_0_0 : S4x4096x1024.Slices ![0, 0, 0] S4x4095x1024
  concatenates_S4x1x1024_S4x4095x1024_S4x4096x1024_d1 : Shape.Concatenates [S4x1x1024, S4x4095x1024] S4x4096x1024 1
  slices_S4x4096x1024_S4x4095x1024_0_1_0 : S4x4096x1024.Slices ![0, 1, 0] S4x4095x1024
  slices_S4x4096x1024_S4x1x1024_0_0_0 : S4x4096x1024.Slices ![0, 0, 0] S4x1x1024
  concatenates_S4x4095x1024_S4x1x1024_S4x4096x1024_d1 : Shape.Concatenates [S4x4095x1024, S4x1x1024] S4x4096x1024 1
  slices_S4x4096x1024_S4x4092x1024_0_4_0 : S4x4096x1024.Slices ![0, 4, 0] S4x4092x1024
  slices_S4x4096x1024_S4x4x1024_0_0_0 : S4x4096x1024.Slices ![0, 0, 0] S4x4x1024
  concatenates_S4x4092x1024_S4x4x1024_S4x4096x1024_d1 : Shape.Concatenates [S4x4092x1024, S4x4x1024] S4x4096x1024 1
  slices_S4x4096x1024_S4x4080x1024_0_16_0 : S4x4096x1024.Slices ![0, 16, 0] S4x4080x1024
  slices_S4x4096x1024_S4x16x1024_0_0_0 : S4x4096x1024.Slices ![0, 0, 0] S4x16x1024
  concatenates_S4x4080x1024_S4x16x1024_S4x4096x1024_d1 : Shape.Concatenates [S4x4080x1024, S4x16x1024] S4x4096x1024 1
  slices_S4x4096x1024_S4x4064x1024_0_32_0 : S4x4096x1024.Slices ![0, 32, 0] S4x4064x1024
  slices_S4x4096x1024_S4x32x1024_0_0_0 : S4x4096x1024.Slices ![0, 0, 0] S4x32x1024
  concatenates_S4x4064x1024_S4x32x1024_S4x4096x1024_d1 : Shape.Concatenates [S4x4064x1024, S4x32x1024] S4x4096x1024 1
  bcast_S4x4096x1024_S4x4096x1x1024_0_1_3 : S4x4096x1024.BroadcastsInDim S4x4096x1x1024 (![0, 1, 3] : Fin 3 → Fin S4x4096x1x1024.rank)
  concatenates_S4x4096x1x1024_S4x4096x1x1024_S4x4096x1x1024_S4x4096x1x1024_S4x4096x1x1024_S4x4096x1x1024_S4x4096x1x1024_S4x4096x1x1024_S4x4096x1x1024_S4x4096x9x1024_d2 : Shape.Concatenates [S4x4096x1x1024, S4x4096x1x1024, S4x4096x1x1024, S4x4096x1x1024, S4x4096x1x1024, S4x4096x1x1024, S4x4096x1x1024, S4x4096x1x1024, S4x4096x1x1024] S4x4096x9x1024 2
  bcast_S_S4x4096x9216 : S_.BroadcastsInDim S4x4096x9216 (![] : Fin 0 → Fin S4x4096x9216.rank)
  shapeCasts_S4x4096x9216_S4x4096x9x1024 : S4x4096x9216.ShapeCasts S4x4096x9x1024
  reducesTo_S4x4096x9x1024_S4x4096x1024_d2 : S4x4096x9x1024.ReducesTo [2] S4x4096x1024
  h_S_ : 0 < S_.numel
  reducesTo_S4x4096x1024_S4x4096_d2 : S4x4096x1024.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S9216x1024_S4x4096x9216_2_1_01_0_n_n_wf : DotDims.WF S4x4096x1024 S9216x1024 S4x4096x9216 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S9216x1024_S4x4096x9216_2_1_01_0_n_n : DotDims S4x4096x1024 S9216x1024 S4x4096x9216 where
  lhsContracting := [2]
  rhsContracting := [1]
  lhsNonContracting := [0, 1]
  rhsNonContracting := [0]
  lhsBatch := []
  rhsBatch := []
  wf := dot_S4x4096x1024_S9216x1024_S4x4096x9216_2_1_01_0_n_n_wf

class Facts : Prop extends Facts₀ where

variable [Facts]
-- ==== Proof.KernelProjection.lean ====
/-
  The value projection, the program's first kernel call, as one step of the run: on a grid of 4 x 8 points, point
  (b, l) reads rows [512 l, 512 l + 512) of batch b of the activations and the whole (transposed, rounded) projection
  matrix, and writes their product to the same rows of the projected array. This module states what one call of the
  body leaves in the output block as a function of the two blocks it reads, proves the body does that on any whole
  staging buffers, and packages it as the per-point obligation of the pipeline that stages the blocks, at ANY
  contents `V` of the buffers when the call is entered.
-/
import proofs.«120279_j30434138259751_2_alg».proof.Proof.Gen.Kernel.Launch
import proofs.«120279_j30434138259751_2_alg».proof.Proof.Gen.Kernel.Skeleton
import proofs.«120279_j30434138259751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the call reads -/

/-- The block of window `w` at grid point `t`: the rows of the window's array that the point's index map selects,
    read off the array as the call finds it. -/
def projBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block whenever the body runs (it is fetched at every point). -/
theorem projHeld0 {c : Dev nD} (dat : Dat τ (Elt F) Unit ℕ (Pipeline.UD sig nD τ) ℕ cfg0 c) (hA : dat.A 0 = V c (Pipeline.arrRef spec0 0))
    (hafter : ∀ t, dat.after 0 t = projBlock V c 0 t) (t : Fin cfg0.N) (d) : dat.before 0 t d = projBlock V c 0 t :=
  (dat.before_in_eq_fetched 0 rfl (fun _ => rfl) (fun _ _ _ => rfl) (fun t => by rw [hafter]; unfold Dat.blockOf projBlock; rw [hA]; try rfl) t d).trans
    (by unfold Dat.fetched Dat.blockOf projBlock; rw [hA]; try rfl)

/-- The matrix's staging buffer holds the whole matrix at every point: it is fetched once, its block index never
    moves, and the body leaves it in place. -/
theorem projHeld1 {c : Dev nD} (dat : Dat τ (Elt F) Unit ℕ (Pipeline.UD sig nD τ) ℕ cfg0 c) (hA : dat.A 1 = V c (Pipeline.arrRef spec0 1))
    (hafter : ∀ t, dat.after 1 t = projBlock V c 1 t) (t : Fin cfg0.N) (d) : dat.before 1 t d = projBlock V c 1 t :=
  (dat.before_in_eq_fetched 1 rfl (fun _ => rfl) (fun _ _ _ => rfl) (fun t => by rw [hafter]; unfold Dat.blockOf projBlock; rw [hA]; try rfl) t d).trans
    (by unfold Dat.fetched Dat.blockOf projBlock; rw [hA]; try rfl)

/-! ## What one call of the body leaves -/

/-- The whole activation block, the whole matrix block: the rectangles the body loads and stores through. -/
abbrev rectX : Rect S1x512x1024 := Rect.unit (s := S1x512x1024) ![0, 0, 0] S1x512x1024.size inb_S1x512x1024_S1x512x1024_0_0_0
abbrev rectW : Rect S1024x1024 := Rect.unit (s := S1024x1024) ![0, 0] S1024x1024.size inb_S1024x1024_S1024x1024_0_0

/-- The output block after the body: its one store, of the product of the two loaded blocks, read back. -/
def projOut (x0 : Vec F S1x512x1024 .f32) (x1 : Vec F S1024x1024 .bf16) : Vec F S1x512x1024 .f32 :=
  View.canon [⟨rectX, k0_pay1 (View.ld x0 rectX) (View.ld x1 rectW)⟩]

/-- The one store covers the whole block. -/
theorem projCover (p0 : Vec F S1x512x1024 .f32) (y : S1x512x1024.Idx) :
    ∃ pc ∈ ([⟨rectX, p0⟩] : List (View.Piece (Elt F) S1x512x1024 .f32)), y ∈ pc.1.set :=
  View.cover_of_tiled [⟨rectX, p0⟩] S1x512x1024.size (by rfl) y

set_option maxHeartbeats 1000000 in
/-- The body on whole staging buffers, the two inputs' at contents `x0`, `x1` and the output's at anything: it runs to
    its return with the inputs' buffers as they were and the output's at `projOut x0 x1`. -/
theorem projBody (c : Dev nD) (E : Set ℕ) (i : grid0.Coords) (arg2 : Memref sig .tc .vmem S1x512x1024 .f32) (harg2 : arg2.IsWhole)
    (arg3 : Memref sig .tc .vmem S1024x1024 .bf16) (harg3 : arg3.IsWhole) (arg4 : Memref sig .tc .vmem S1x512x1024 .f32) (harg4 : arg4.IsWhole)
    (x0 : Vec F S1x512x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (projOut x0 x1)) -∗ K ⟨⟩))
      ⊢ wp frame (wpE (defs₀ (F := F)) Variants.none c none) E (cc0__value_kernel i arg2 harg2 arg3 harg3 arg4 harg4) K := by
  simp only [cc0__value_kernel_eq_skeleton]; unfold cc0__value_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data and the per-point obligation -/

/-- The proof data of the call on core `c`: the arrays as the call finds them; after the body at point `t` each
    input's buffer at its block and the output's at the product; the invariant holds only what the call never touches;
    nothing is owed; full shares. -/
def projDat (c : Dev nD) : Dat τ (Elt F) Unit ℕ (Pipeline.UD sig nD τ) ℕ cfg0 c where
  A w := V c (Pipeline.arrRef spec0 w)
  after w t := match w with
    | ⟨0, _⟩ => projBlock V c 0 t
    | ⟨1, _⟩ => projBlock V c 1 t
    | ⟨2, _⟩ => projOut (projBlock V c 0 t) (projBlock V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projAfter0 (c : Dev nD) (t : Fin cfg0.N) : (projDat V c).after 0 t = projBlock V c 0 t := by dsimp only [projDat]
theorem projAfter1 (c : Dev nD) (t : Fin cfg0.N) : (projDat V c).after 1 t = projBlock V c 1 t := by dsimp only [projDat]
theorem projAfter2 (c : Dev nD) (t : Fin cfg0.N) : (projDat V c).after 2 t = projOut (projBlock V c 0 t) (projBlock V c 1 t) := by dsimp only [projDat]

theorem projBefore0 (c : Dev nD) (t : Fin cfg0.N) (d) : (projDat V c).before 0 t d = projBlock V c 0 t :=
  projHeld0 V (projDat V c) (projDat_A V c 0) (projAfter0 V c) t d
theorem projBefore1 (c : Dev nD) (t : Fin cfg0.N) (d) : (projDat V c).before 1 t d = projBlock V c 1 t :=
  projHeld1 V (projDat V c) (projDat_A V c 1) (projAfter1 V c) t d

/-- What the body is called with at point `t`, window by window, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so `projBody` applies; the invariant and what the
    core owes pass through unread. -/
theorem projSound (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projBody c Set.univ _ _ _ _ _ _ _ (projBlock V c 0 t) (projBlock V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline, at every point. -/
theorem projObligation (c : Dev nD) : BodyObligation (projDat (F := F) V c) (defs₀ (F := F)) Variants.none () Set.univ := fun t => by
  rw [bigSep_W0, bigSep_W0]
  exact projSound V c t

end Cert.Kernel.Hand

end
-- ==== Proof.KernelMixerRun.lean ====
/-
  The mixer, the program's second kernel call, as one step of the run: on a grid of 4 x 16 points, point (b, l) reads
  rows [256 l, 256 l + 256) of batch b of the activations, the whole (transposed, rounded) gate matrix, the scale and
  the shift rows, and — by a copy the body issues and waits for itself — rows [256 l, 256 l + 320) of batch b of the
  circularly padded projection, which stays in main memory; it writes the normalised gated mix to rows
  [256 l, 256 l + 256) of batch b of the result. This module runs the body once on any whole staging buffers and names
  what its one store leaves in the output block; the copy borrows the padded array and the body's own semaphore from
  the call's invariant and returns both as found.
-/
import proofs.«120279_j30434138259751_2_alg».proof.Proof.Gen.Kernel.Launch
import proofs.«120279_j30434138259751_2_alg».proof.Proof.Gen.Kernel.Skeleton
import proofs.«120279_j30434138259751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the call reads through its windows -/

/-- The block of window `w` at grid point `t`, read off the window's array as the call finds it. -/
def mixBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block whenever the body runs: fetched there, or fetched
    earlier with the block index unmoved since and the body leaving it in place. -/
theorem mixHeld0 {c : Dev nD} (dat : Dat τ (Elt F) Unit ℕ (Pipeline.UD sig nD τ) ℕ cfg1 c) (hA : dat.A 0 = V c (Pipeline.arrRef spec1 0))
    (hafter : ∀ t, dat.after 0 t = mixBlock V c 0 t) (t : Fin cfg1.N) (d) : dat.before 0 t d = mixBlock V c 0 t :=
  (dat.before_in_eq_fetched 0 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld1 {c : Dev nD} (dat : Dat τ (Elt F) Unit ℕ (Pipeline.UD sig nD τ) ℕ cfg1 c) (hA : dat.A 1 = V c (Pipeline.arrRef spec1 1))
    (hafter : ∀ t, dat.after 1 t = mixBlock V c 1 t) (t : Fin cfg1.N) (d) : dat.before 1 t d = mixBlock V c 1 t :=
  (dat.before_in_eq_fetched 1 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld2 {c : Dev nD} (dat : Dat τ (Elt F) Unit ℕ (Pipeline.UD sig nD τ) ℕ cfg1 c) (hA : dat.A 2 = V c (Pipeline.arrRef spec1 2))
    (hafter : ∀ t, dat.after 2 t = mixBlock V c 2 t) (t : Fin cfg1.N) (d) : dat.before 2 t d = mixBlock V c 2 t :=
  (dat.before_in_eq_fetched 2 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld3 {c : Dev nD} (dat : Dat τ (Elt F) Unit ℕ (Pipeline.UD sig nD τ) ℕ cfg1 c) (hA : dat.A 3 = V c (Pipeline.arrRef spec1 3))
    (hafter : ∀ t, dat.after 3 t = mixBlock V c 3 t) (t : Fin cfg1.N) (d) : dat.before 3 t d = mixBlock V c 3 t :=
  (dat.before_in_eq_fetched 3 rfl (fun _ => rfl) (fun _ _ _ => rfl) (fun t => by rw [hafter]; unfold Dat.blockOf mixBlock; rw [hA]; try rfl) t d).trans
    (by unfold Dat.fetched Dat.blockOf mixBlock; rw [hA]; try rfl)

/-! ## The operands the pipeline does not stage -/

/-- One staging buffer of the output window, through which its contents are stated (the choice does not matter). -/
abbrev outView : View sig .tc .vmem S1x256x1024 .f32 := (Memref.whole cc1_stg4_0 : Memref sig .tc .vmem S1x256x1024 .f32).view
/-- Each window's current staging buffer at point `t`, as the pipeline passes it to the body, and that it is whole. -/
abbrev mixM0 (t : Fin cfg1.N) : Memref sig .tc .vmem S1x256x1024 .f32 := win1_0.stage (cfg1.slots t 0)
abbrev mixH0 (t : Fin cfg1.N) : (mixM0 t).IsWhole := hstage1_0 ((cfg1.slots t 0).cast nbuf1_0)
abbrev mixM1 (t : Fin cfg1.N) : Memref sig .tc .vmem S1024x9216 .bf16 := win1_1.stage (cfg1.slots t 1)
abbrev mixH1 (t : Fin cfg1.N) : (mixM1 t).IsWhole := hstage1_1 ((cfg1.slots t 1).cast nbuf1_1)
abbrev mixM2 (t : Fin cfg1.N) : Memref sig .tc .vmem S1x1024 .f32 := win1_2.stage (cfg1.slots t 2)
abbrev mixH2 (t : Fin cfg1.N) : (mixM2 t).IsWhole := hstage1_2 ((cfg1.slots t 2).cast nbuf1_2)
abbrev mixM3 (t : Fin cfg1.N) : Memref sig .tc .vmem S1x1024 .f32 := win1_3.stage (cfg1.slots t 3)
abbrev mixH3 (t : Fin cfg1.N) : (mixM3 t).IsWhole := hstage1_3 ((cfg1.slots t 3).cast nbuf1_3)
abbrev mixM4 (t : Fin cfg1.N) : Memref sig .tc .vmem S1x256x1024 .f32 := win1_4.stage (cfg1.slots t 4)
abbrev mixH4 (t : Fin cfg1.N) : (mixM4 t).IsWhole := hstage1_4 ((cfg1.slots t 4).cast nbuf1_4)
/-- The window scratch the body copies into, and the padded projection it copies from: whole buffers. -/
abbrev scratchM : Memref sig .tc .vmem S320x1024 .f32 := Memref.whole cc1_scratch0
abbrev paddedM : Memref sig .tc .hbm S4x4160x1024 .f32 := Memref.whole main_v7
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own copy-completion semaphore: the one cell of its semaphore operand; no window's staging cell. -/
abbrev mixSem : Fin 1 → SemLoc sig := fun j => (![SemLoc.dma 12] : Fin 1 → SemLoc sig) j
theorem mixSemFacts : Pipeline.OwnSemFacts spec1 mixSem := by decide
theorem mixSems0_eq (c : Dev nD) :
    (Pipeline.ownSems0 (Ix := Unit) (Name := ℕ) (U := Pipeline.UD sig nD τ) (Lvl := ℕ) (Val := Elt F) (τ := τ) mixSem c : sProp 𝕄)
      = iprop(semVal ((c : Thread nD τ), SemLoc.dma 12) 0) := by
  rw [Pipeline.ownSems0_eq_of_list c mixSem [0] (by decide) (by decide)]; rfl
/-- The array the body reads by its own copy: unscoped, no window's array. -/
def mixHbm : Finset (Ref sig .tc) := {main_v7}
theorem mixHbm_sub : mixHbm ⊆ Pipeline.restRefs sig spec1 := by decide
theorem mixHbmPts_eq (c : Dev nD) :
    (bigSep mixHbm (fun b => ((c : Thread nD τ).loc b) ↦{fullShare} V c b) : sProp 𝕄) = iprop(hbPt c paddedM (V c main_v7)) := by
  rw [BI.bigSep_eq_bigSepL_of_eq [main_v7] (by decide) (by decide)]; rfl

/-- The call's invariant conjunct by conjunct: the other call's staging buffers and this call's scratch at some
    contents, the random-number register at some state, the body's semaphore at zero, the padded projection at its contents
    when the call is entered. -/
theorem mixInv_eq (c : Dev nD) :
    (Pipeline.ΦD mixSem spec1 mixHbm V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scratchM fullShare d)) ∗ (∃ r, prngReg c r) ∗ iprop(semVal ((c : Thread nD τ), SemLoc.dma 12) 0) ∗ iprop(hbPt c paddedM (V c main_v7))) := by
  rw [Pipeline.ΦD_eq, scopedRest1_eq, mixSems0_eq, mixHbmPts_eq]; simp only [scratchM, owns_whole]; try rfl

/-! ## One call of the body -/

set_option maxHeartbeats 4000000 in
/-- The pieces the body's store leaves in the output's staging buffer, WITH the proof that on whole staging buffers —
    the four inputs' at their contents, the output's and the scratch at anything, the padded projection whole at
    `fh`, the body's semaphore at zero — the body runs to its return holding the inputs' as they were, the scratch at
    some contents, the padded projection and the semaphore as they were (the copy lent the window's rows, delivered
    the scratch and was waited for), and the output's buffer with its pieces written. -/
noncomputable def mixRun (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) :
    { L : List (View.Piece (Elt F) S1x256x1024 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ semVal ((c : Thread nD τ), SemLoc.dma 12) 0 ∗ hbPt c paddedM fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ (∃ d, owns (c : Thread nD τ) arg8 fullShare d) ∗ semVal ((c : Thread nD τ), SemLoc.dma 12) 0 ∗ hbPt c paddedM fh ∗ (∃ W', owes (c : Thread nD τ) 0 W')) -∗ K ⟨⟩))
          ⊢ wp frame (wpE (defs₀ (F := F)) Variants.none c none) Set.univ (cc1__mixer_kernel i arg2 harg2 (Memref.whole main_v7) (Memref.isWhole_whole _) arg4 harg4 arg5 harg5 arg6 harg6 arg7 harg7 arg8 harg8 cc1_scratch1) K } := by
  refine ⟨?_, fun W K => ?run⟩
  case run =>
    simp only [cc1__mixer_kernel_eq_skeleton]; unfold cc1__mixer_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hq0, Hh0, HW, Hk⟩
    obtain rfl := harg2.eq_unread hf0
    obtain rfl := harg4.eq_unread hf1
    obtain rfl := harg5.eq_unread hf2
    obtain rfl := harg6.eq_unread hf3
    sl_exec
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [Hq0]; · iexact Hq0
    isplitl [Hh0]; · iexact Hh0
    iexists _; iexact HW

end Cert.Kernel.Hand

end
-- ==== Proof.KernelMixer.lean ====
/-
  The mixer call's proof data and per-point obligation: the output block after the body at a grid point is what the
  body's one store leaves, read back; each input window's buffer holds its block; the invariant lends the body its
  scratch, its semaphore and the padded projection and takes them back unchanged.
-/
import proofs.«120279_j30434138259751_2_alg».proof.Proof.KernelMixerRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's one store covers the whole output block. -/
theorem mixCover (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) (y : S1x256x1024.Idx) :
    ∃ pc ∈ (mixRun c i arg2 harg2 arg4 harg4 arg5 harg5 arg6 harg6 arg7 harg7 arg8 harg8 x0 x1 x2 x3 fh).1, y ∈ pc.1.set :=
  View.cover_of_tiledL (mixRun c i arg2 harg2 arg4 harg4 arg5 harg5 arg6 harg6 arg7 harg7 arg8 harg8 x0 x1 x2 x3 fh).1 S1x256x1024.size (by sl_kernel_rfl) y

/-- What the body leaves in the output's staging buffer: its store read back (over anything: the store covers it). -/
def mixOut (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) : Vec F S1x256x1024 .f32 :=
  outView.read (Elt F) (outView.writes (Elt F) outView.junk (mixRun c i arg2 harg2 arg4 harg4 arg5 harg5 arg6 harg6 arg7 harg7 arg8 harg8 x0 x1 x2 x3 fh).1)

/-- The output block after the body at grid point `t`: `mixOut` at the point's buffers, its four input blocks and the
    padded projection as the call finds it. -/
def mixOutAt (c : Dev nD) (t : Fin cfg1.N) : Vec F S1x256x1024 .f32 :=
  mixOut c (grid1.coords t) (mixM0 t) (mixH0 t) (mixM1 t) (mixH1 t) (mixM2 t) (mixH2 t) (mixM3 t) (mixH3 t) (mixM4 t) (mixH4 t) scratchM (Memref.isWhole_whole _)
    (mixBlock V c 0 t) (mixBlock V c 1 t) (mixBlock V c 2 t) (mixBlock V c 3 t) (V c main_v7)

/-- The proof data of the call on core `c`: the arrays as the call finds them; after the body at point `t` each
    input's buffer at its block and the output's at `mixOutAt`; the invariant of a body with a copy of its own;
    nothing owed; full shares. -/
def mixDat (c : Dev nD) : Dat τ (Elt F) Unit ℕ (Pipeline.UD sig nD τ) ℕ cfg1 c where
  A w := V c (Pipeline.arrRef spec1 w)
  after w t := match w with
    | ⟨0, _⟩ => mixBlock V c 0 t
    | ⟨1, _⟩ => mixBlock V c 1 t
    | ⟨2, _⟩ => mixBlock V c 2 t
    | ⟨3, _⟩ => mixBlock V c 3 t
    | ⟨4, _⟩ => mixOutAt V c t
  Φ _ := Pipeline.ΦD mixSem spec1 mixHbm V c
  q _ := fullShare
  owed _ := 0

theorem mixDat_A (c : Dev nD) (w : Fin cfg1.W) : (mixDat V c).A w = V c (Pipeline.arrRef spec1 w) := by
  dsimp only [mixDat]
theorem mixAfter0 (c : Dev nD) (t : Fin cfg1.N) : (mixDat V c).after 0 t = mixBlock V c 0 t := by dsimp only [mixDat]
theorem mixAfter1 (c : Dev nD) (t : Fin cfg1.N) : (mixDat V c).after 1 t = mixBlock V c 1 t := by dsimp only [mixDat]
theorem mixAfter2 (c : Dev nD) (t : Fin cfg1.N) : (mixDat V c).after 2 t = mixBlock V c 2 t := by dsimp only [mixDat]
theorem mixAfter3 (c : Dev nD) (t : Fin cfg1.N) : (mixDat V c).after 3 t = mixBlock V c 3 t := by dsimp only [mixDat]
theorem mixAfter4 (c : Dev nD) (t : Fin cfg1.N) : (mixDat V c).after 4 t = mixOutAt V c t := by dsimp only [mixDat]

theorem mixBefore0 (c : Dev nD) (t : Fin cfg1.N) (d) : (mixDat V c).before 0 t d = mixBlock V c 0 t :=
  mixHeld0 V (mixDat V c) (mixDat_A V c 0) (mixAfter0 V c) t d
theorem mixBefore1 (c : Dev nD) (t : Fin cfg1.N) (d) : (mixDat V c).before 1 t d = mixBlock V c 1 t :=
  mixHeld1 V (mixDat V c) (mixDat_A V c 1) (mixAfter1 V c) t d
theorem mixBefore2 (c : Dev nD) (t : Fin cfg1.N) (d) : (mixDat V c).before 2 t d = mixBlock V c 2 t :=
  mixHeld2 V (mixDat V c) (mixDat_A V c 2) (mixAfter2 V c) t d
theorem mixBefore3 (c : Dev nD) (t : Fin cfg1.N) (d) : (mixDat V c).before 3 t d = mixBlock V c 3 t :=
  mixHeld3 V (mixDat V c) (mixDat_A V c 3) (mixAfter3 V c) t d

/-- What the body is called with at point `t`, window by window, -/
def mixPre (c : Dev nD) (t : Fin cfg1.N) : sProp 𝕄 :=
  iprop((mixDat V c).Φ t.castSucc ∗ (mixDat V c).owesAt () t.castSucc
    ∗ (∃ d, owns (c : Thread nD τ) (mixM0 t) fullShare ((mixDat V c).before 0 t d))
    ∗ (∃ d, owns (c : Thread nD τ) (mixM1 t) fullShare ((mixDat V c).before 1 t d))
    ∗ (∃ d, owns (c : Thread nD τ) (mixM2 t) fullShare ((mixDat V c).before 2 t d))
    ∗ (∃ d, owns (c : Thread nD τ) (mixM3 t) fullShare ((mixDat V c).before 3 t d))
    ∗ (∃ d, owns (c : Thread nD τ) (mixM4 t) fullShare ((mixDat V c).before 4 t d)))

/-- and what it returns. -/
def mixPost (c : Dev nD) (t : Fin cfg1.N) : sProp 𝕄 :=
  iprop((mixDat V c).Φ t.succ ∗ (mixDat V c).owesAt () t.succ
    ∗ owns (c : Thread nD τ) (mixM0 t) fullShare ((mixDat V c).after 0 t)
    ∗ owns (c : Thread nD τ) (mixM1 t) fullShare ((mixDat V c).after 1 t)
    ∗ owns (c : Thread nD τ) (mixM2 t) fullShare ((mixDat V c).after 2 t)
    ∗ owns (c : Thread nD τ) (mixM3 t) fullShare ((mixDat V c).after 3 t)
    ∗ owns (c : Thread nD τ) (mixM4 t) fullShare ((mixDat V c).after 4 t))

/-- The body at any point: the inputs' buffers hold their blocks, so the run applies; the invariant hands the body its
    scratch, the register, its semaphore at zero and the padded projection, and takes them back as they were; what the
    core owes goes in as the earlier points left it and comes back with this point's wait recorded. -/
theorem mixSound (c : Dev nD) (t : Fin cfg1.N) :
    mixPre V c t ⊢ wp frame (wpE (defs₀ (F := F)) Variants.none c none) Set.univ (bodyAt1 t) (fun _ => mixPost V c t) := by
  unfold mixPre mixPost bodyAt1
  simp only [mixBefore0, mixBefore1, mixBefore2, mixBefore3]
  rw [show (mixDat V c).Φ t.succ = (mixDat V c).Φ t.castSucc from rfl,
    mixAfter0, mixAfter1, mixAfter2, mixAfter3, mixAfter4]
  rw [show (mixDat V c).Φ t.castSucc = Pipeline.ΦD mixSem spec1 mixHbm V c from rfl, mixInv_eq]
  unfold Dat.owesAt Pipeline.owesWithin
  rw [show (mixDat V c).owed t.castSucc = 0 from rfl, show (mixDat V c).owed t.succ = 0 from rfl]
  unfold mixOutAt
  unfold mixOut
  iintro ⟨⟨⟨HR0, HR1, HR2, HR3, HR4, HS0⟩, Hg, Hq0, Hh0⟩, ⟨%W, -, HW⟩, ⟨%d0, H0⟩, ⟨%d1, H1⟩, ⟨%d2, H2⟩, ⟨%d3, H3⟩, ⟨%d4, H4⟩⟩
  iapply ((mixRun c (grid1.coords t) _ _ _ _ _ _ _ _ _ _ _ _ (mixBlock V c 0 t) (mixBlock V c 1 t) (mixBlock V c 2 t) (mixBlock V c 3 t) (V c main_v7)).2 W _)
  isplitl [H0]; · iexact H0
  isplitl [H1]; · iexact H1
  isplitl [H2]; · iexact H2
  isplitl [H3]; · iexact H3
  isplitl [H4]; · iexists _; iexact H4
  isplitl [HS0]; · iexact HS0
  isplitl [Hq0]; · iexact Hq0
  isplitl [Hh0]; · iexact Hh0
  isplitl [HW]; · iexact HW
  iintro ⟨H0, H1, H2, H3, ⟨%e4, H4⟩, HS0, Hq0, Hh0, ⟨%W', HW'⟩⟩
  isplitl [HR0 HR1 HR2 HR3 HR4 HS0 Hg Hq0 Hh0]
  · isplitl [HR0 HR1 HR2 HR3 HR4 HS0]
    · isplitl [HR0]; · iexact HR0
      isplitl [HR1]; · iexact HR1
      isplitl [HR2]; · iexact HR2
      isplitl [HR3]; · iexact HR3
      isplitl [HR4]; · iexact HR4
      iexact HS0
    isplitl [Hg]
    · iexact Hg
    isplitl [Hq0]
    · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (mixCover c _ _ _ _ _ _ _ _ _ _ _ _ _ _ _ _ _ _)

/-- The per-point obligation of the pipeline, at every point. -/
theorem mixObligation (c : Dev nD) : BodyObligation (mixDat (F := F) V c) (defs₀ (F := F)) Variants.none () Set.univ := fun t => by
  rw [bigSep_W1, bigSep_W1]
  exact mixSound V c t

end Cert.Kernel.Hand

end
-- ==== Proof.KernelRun.lean ====
/-
  The whole program as a run of four segments — the host's transposes and roundings; the value projection; the host's
  circular padding and the two reshapes; the mixer — from any launch memory: the contents of every buffer at each
  boundary, as a fold from the launch memory (a host stretch applies its operations; a kernel call leaves its
  arrays at what its write-backs make of them); each call as a segment entered from one boundary's contents and left at
  the next's; and the run: every weakly fair execution terminates, and the final memory holds every unscoped buffer
  at the last boundary's contents. The argument arrays come back to the launch contents through the fold; the result
  array is what the mixer's write-backs leave.
-/
import proofs.«120279_j30434138259751_2_alg».proof.Proof.KernelProjection
import proofs.«120279_j30434138259751_2_alg».proof.Proof.KernelMixer
import proofs.«120279_j30434138259751_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m ((c : Dev nD), b)
/-- After the first host stretch: the transposed, rounded matrices are there (the projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection: its arrays at what the pipeline leaves, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projLeaves (c : Dev nD) (w : Fin cfg0.W) : (projDat (V1 m) c).arrAt w cfg0.N = V2 m c (Pipeline.arrRef spec0 w) :=
  (W2_arr m c w).symm
theorem projKeeps (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the padded projection and the reshaped scale and shift are there (the mixer's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the mixer: its arrays at what the pipeline leaves, every other buffer as entered. -/
def W4 (c : Dev nD) : Valuation τ sig (Elt F) :=
  Pipeline.withArrays spec1 c (W3 m c) fun w => (mixDat (V3 m) c).arrAt w cfg1.N
theorem W4_arr (c : Dev nD) (w : Fin cfg1.W) :
    W4 m c (Proc.devRef .tc (Pipeline.arrRef spec1 w)) = (mixDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem mixLeaves (c : Dev nD) (w : Fin cfg1.W) : (mixDat (V3 m) c).arrAt w cfg1.N = V4 m c (Pipeline.arrRef spec1 w) :=
  (W4_arr m c w).symm
theorem mixKeeps (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### No segment writes an argument: the fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((mixDat (V3 m) c).arrAt_in 0 rfl _).trans (mixDat_A (V3 m) c 0))
    _ = W2 m c (Proc.devRef .tc main_arg0) := StableHlo.after_of_writes_sub hostOps1 _ hostOps1_writes (by decide)
    _ = W1 m c (Proc.devRef .tc main_arg0) := (W2_arr m c 0).trans (((projDat (V1 m) c).arrAt_in 0 rfl _).trans (projDat_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each pipeline's proof data at its call's entry contents. -/
def pdats : (p : Fin 2) → (c : Dev nD) → Dat τ (Elt F) Unit ℕ (Pipeline.UD sig nD τ) ℕ (Pipeline.pin (pcfgs (F := F)) adm p) c
  | ⟨0, _⟩ => fun c => projDat (V1 m) c
  | ⟨1, _⟩ => fun c => mixDat (V3 m) c
abbrev 𝒱₀ : Variants := Variants.none
abbrev L : GSem nD τ sig → Finset Unit := fun _ => ∅
abbrev lv : GSem nD τ sig → Unit → ℕ := fun _ _ => 0
/-- What rides beside the buffers through every segment: the random-number register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The projection over the thread state: entered from every unscoped buffer at `W1`, left at `W2`. Its arrays are
    split out of the unscoped buffers and put back at the exit contents; the register goes into the invariant and
    comes out; nothing is owed; the kernel has no semaphore of its own. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (projLeaves m c) (projKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The mixer over the thread state: entered from every unscoped buffer at `W3`, left at `W4`. Besides its arrays
    and the register, the body's own semaphore (at zero from the boundary, and back) and the padded projection it copies
    from (split out of the bypassing buffers and rejoined) go through the invariant. -/
def mixSeg : Pipeline.RegionSeg (pcfgs (F := F)) adm (pdats m) () defs₀ 𝒱₀ L lv 1 where
  win := launch1.win.to₀
  block_pos := launch1.block_pos
  stage_whole := launch1.stage_whole
  K := Fin 1
  osem := mixSem
  ho := mixSemFacts
  hbody c := (mixObligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) mixSem c ∗ (bigSep mixHbm fun b => (((c : Thread nD τ)).loc b) ↦{fullShare} V3 m c b))
  Y c := iprop((∃ r, prngReg c r) ∗ (bigSep mixHbm fun b => (((c : Thread nD τ)).loc b) ↦{fullShare} V3 m c b))
  Z c := bigSep (Pipeline.restRefs sig spec1 \ mixHbm) fun b => (((c : Thread nD τ)).loc b) ↦{fullShare} V3 m c b
  hentry c := by
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    have hH : (Pipeline.unscopedRest (Ix := Unit) (Name := ℕ) (U := Pipeline.UD sig nD τ) (Lvl := ℕ) spec1 c (V3 m c) : sProp 𝕄)
        = iprop((bigSep mixHbm fun b => (((c : Thread nD τ)).loc b) ↦{fullShare} V3 m c b) ∗ (bigSep (Pipeline.restRefs sig spec1 \ mixHbm) fun b => (((c : Thread nD τ)).loc b) ↦{fullShare} V3 m c b)) := by
      unfold Pipeline.unscopedRest; exact BI.bigSep_sdiff_split mixHbm_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = Pipeline.ΦD mixSem spec1 mixHbm (V3 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m 1 c).Φ (Fin.last _) = Pipeline.ΦD mixSem spec1 mixHbm (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (mixLeaves m c) (mixKeeps m c)
    rw [Pipeline.unscopedBufs_held] at hjoin
    have hH : (Pipeline.unscopedRest (Ix := Unit) (Name := ℕ) (U := Pipeline.UD sig nD τ) (Lvl := ℕ) spec1 c (V3 m c) : sProp 𝕄)
        = iprop((bigSep mixHbm fun b => (((c : Thread nD τ)).loc b) ↦{fullShare} V3 m c b) ∗ (bigSep (Pipeline.restRefs sig spec1 \ mixHbm) fun b => (((c : Thread nD τ)).loc b) ↦{fullShare} V3 m c b)) := by
      unfold Pipeline.unscopedRest; exact BI.bigSep_sdiff_split mixHbm_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (projSeg m),
    .host (hseg hostOps1 hostOps1_sub hostOps1_fresh (W2 m)),
    .region (mixSeg m) ]
theorem main_run (c : Dev nD) : main (F := F) c = Pipeline.Seg.run (segs m) := (main_chain c).trans (by chain_rfl)

set_option backward.isDefEq.respectTransparency.types false in
/-- THE RUN, at any instance of the float operations: from any memory with zero counters every weakly fair execution
    of the program terminates, nothing faulting, and the final memory holds every unscoped buffer at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.KernelIdealProjection.lean ====
/-
  The value projection, the program's first kernel call, as one step of the run: on a grid of 4 x 8 points, point
  (b, l) reads rows [512 l, 512 l + 512) of batch b of the activations and the whole (transposed, rounded) projection
  matrix, and writes their product to the same rows of the projected array. This module states what one call of the
  body leaves in the output block as a function of the two blocks it reads, proves the body does that on any whole
  staging buffers, and packages it as the per-point obligation of the pipeline that stages the blocks, at ANY
  contents `V` of the buffers when the call is entered.
-/
import proofs.«120279_j30434138259751_2_alg».proof.Proof.Gen.KernelIdeal.Launch
import proofs.«120279_j30434138259751_2_alg».proof.Proof.Gen.KernelIdeal.Skeleton
import proofs.«120279_j30434138259751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the call reads -/

/-- The block of window `w` at grid point `t`: the rows of the window's array that the point's index map selects,
    read off the array as the call finds it. -/
def projBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block whenever the body runs (it is fetched at every point). -/
theorem projHeld0 {c : Dev nD} (dat : Dat τ (Elt F) Unit ℕ (Pipeline.UD sig nD τ) ℕ cfg0 c) (hA : dat.A 0 = V c (Pipeline.arrRef spec0 0))
    (hafter : ∀ t, dat.after 0 t = projBlock V c 0 t) (t : Fin cfg0.N) (d) : dat.before 0 t d = projBlock V c 0 t :=
  (dat.before_in_eq_fetched 0 rfl (fun _ => rfl) (fun _ _ _ => rfl) (fun t => by rw [hafter]; unfold Dat.blockOf projBlock; rw [hA]; try rfl) t d).trans
    (by unfold Dat.fetched Dat.blockOf projBlock; rw [hA]; try rfl)

/-- The matrix's staging buffer holds the whole matrix at every point: it is fetched once, its block index never
    moves, and the body leaves it in place. -/
theorem projHeld1 {c : Dev nD} (dat : Dat τ (Elt F) Unit ℕ (Pipeline.UD sig nD τ) ℕ cfg0 c) (hA : dat.A 1 = V c (Pipeline.arrRef spec0 1))
    (hafter : ∀ t, dat.after 1 t = projBlock V c 1 t) (t : Fin cfg0.N) (d) : dat.before 1 t d = projBlock V c 1 t :=
  (dat.before_in_eq_fetched 1 rfl (fun _ => rfl) (fun _ _ _ => rfl) (fun t => by rw [hafter]; unfold Dat.blockOf projBlock; rw [hA]; try rfl) t d).trans
    (by unfold Dat.fetched Dat.blockOf projBlock; rw [hA]; try rfl)

/-! ## What one call of the body leaves -/

/-- The whole activation block, the whole matrix block: the rectangles the body loads and stores through. -/
abbrev rectX : Rect S1x512x1024 := Rect.unit (s := S1x512x1024) ![0, 0, 0] S1x512x1024.size inb_S1x512x1024_S1x512x1024_0_0_0
abbrev rectW : Rect S1024x1024 := Rect.unit (s := S1024x1024) ![0, 0] S1024x1024.size inb_S1024x1024_S1024x1024_0_0

/-- The output block after the body: its one store, of the product of the two loaded blocks, read back. -/
def projOut (x0 : Vec F S1x512x1024 .f32) (x1 : Vec F S1024x1024 .bf16) : Vec F S1x512x1024 .f32 :=
  View.canon [⟨rectX, k0_pay1 (View.ld x0 rectX) (View.ld x1 rectW)⟩]

/-- The one store covers the whole block. -/
theorem projCover (p0 : Vec F S1x512x1024 .f32) (y : S1x512x1024.Idx) :
    ∃ pc ∈ ([⟨rectX, p0⟩] : List (View.Piece (Elt F) S1x512x1024 .f32)), y ∈ pc.1.set :=
  View.cover_of_tiled [⟨rectX, p0⟩] S1x512x1024.size (by rfl) y

set_option maxHeartbeats 1000000 in
/-- The body on whole staging buffers, the two inputs' at contents `x0`, `x1` and the output's at anything: it runs to
    its return with the inputs' buffers as they were and the output's at `projOut x0 x1`. -/
theorem projBody (c : Dev nD) (E : Set ℕ) (i : grid0.Coords) (arg2 : Memref sig .tc .vmem S1x512x1024 .f32) (harg2 : arg2.IsWhole)
    (arg3 : Memref sig .tc .vmem S1024x1024 .bf16) (harg3 : arg3.IsWhole) (arg4 : Memref sig .tc .vmem S1x512x1024 .f32) (harg4 : arg4.IsWhole)
    (x0 : Vec F S1x512x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (projOut x0 x1)) -∗ K ⟨⟩))
      ⊢ wp frame (wpE (defs₀ (F := F)) Variants.none c none) E (cc0__value_kernel i arg2 harg2 arg3 harg3 arg4 harg4) K := by
  simp only [cc0__value_kernel_eq_skeleton]; unfold cc0__value_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data and the per-point obligation -/

/-- The proof data of the call on core `c`: the arrays as the call finds them; after the body at point `t` each
    input's buffer at its block and the output's at the product; the invariant holds only what the call never touches;
    nothing is owed; full shares. -/
def projDat (c : Dev nD) : Dat τ (Elt F) Unit ℕ (Pipeline.UD sig nD τ) ℕ cfg0 c where
  A w := V c (Pipeline.arrRef spec0 w)
  after w t := match w with
    | ⟨0, _⟩ => projBlock V c 0 t
    | ⟨1, _⟩ => projBlock V c 1 t
    | ⟨2, _⟩ => projOut (projBlock V c 0 t) (projBlock V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projAfter0 (c : Dev nD) (t : Fin cfg0.N) : (projDat V c).after 0 t = projBlock V c 0 t := by dsimp only [projDat]
theorem projAfter1 (c : Dev nD) (t : Fin cfg0.N) : (projDat V c).after 1 t = projBlock V c 1 t := by dsimp only [projDat]
theorem projAfter2 (c : Dev nD) (t : Fin cfg0.N) : (projDat V c).after 2 t = projOut (projBlock V c 0 t) (projBlock V c 1 t) := by dsimp only [projDat]

theorem projBefore0 (c : Dev nD) (t : Fin cfg0.N) (d) : (projDat V c).before 0 t d = projBlock V c 0 t :=
  projHeld0 V (projDat V c) (projDat_A V c 0) (projAfter0 V c) t d
theorem projBefore1 (c : Dev nD) (t : Fin cfg0.N) (d) : (projDat V c).before 1 t d = projBlock V c 1 t :=
  projHeld1 V (projDat V c) (projDat_A V c 1) (projAfter1 V c) t d

/-- What the body is called with at point `t`, window by window, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so `projBody` applies; the invariant and what the
    core owes pass through unread. -/
theorem projSound (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projBody c Set.univ _ _ _ _ _ _ _ (projBlock V c 0 t) (projBlock V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline, at every point. -/
theorem projObligation (c : Dev nD) : BodyObligation (projDat (F := F) V c) (defs₀ (F := F)) Variants.none () Set.univ := fun t => by
  rw [bigSep_W0, bigSep_W0]
  exact projSound V c t

end Cert.KernelIdeal.Hand

end
-- ==== Proof.KernelIdealMixerRun.lean ====
/-
  The mixer, the program's second kernel call, as one step of the run: on a grid of 4 x 16 points, point (b, l) reads
  rows [256 l, 256 l + 256) of batch b of the activations, the whole (transposed, rounded) gate matrix, the scale and
  the shift rows, and — by a copy the body issues and waits for itself — rows [256 l, 256 l + 320) of batch b of the
  circularly padded projection, which stays in main memory; it writes the normalised gated mix to rows
  [256 l, 256 l + 256) of batch b of the result. This module runs the body once on any whole staging buffers and names
  what its one store leaves in the output block; the copy borrows the padded array and the body's own semaphore from
  the call's invariant and returns both as found.
-/
import proofs.«120279_j30434138259751_2_alg».proof.Proof.Gen.KernelIdeal.Launch
import proofs.«120279_j30434138259751_2_alg».proof.Proof.Gen.KernelIdeal.Skeleton
import proofs.«120279_j30434138259751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the call reads through its windows -/

/-- The block of window `w` at grid point `t`, read off the window's array as the call finds it. -/
def mixBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block whenever the body runs: fetched there, or fetched
    earlier with the block index unmoved since and the body leaving it in place. -/
theorem mixHeld0 {c : Dev nD} (dat : Dat τ (Elt F) Unit ℕ (Pipeline.UD sig nD τ) ℕ cfg1 c) (hA : dat.A 0 = V c (Pipeline.arrRef spec1 0))
    (hafter : ∀ t, dat.after 0 t = mixBlock V c 0 t) (t : Fin cfg1.N) (d) : dat.before 0 t d = mixBlock V c 0 t :=
  (dat.before_in_eq_fetched 0 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld1 {c : Dev nD} (dat : Dat τ (Elt F) Unit ℕ (Pipeline.UD sig nD τ) ℕ cfg1 c) (hA : dat.A 1 = V c (Pipeline.arrRef spec1 1))
    (hafter : ∀ t, dat.after 1 t = mixBlock V c 1 t) (t : Fin cfg1.N) (d) : dat.before 1 t d = mixBlock V c 1 t :=
  (dat.before_in_eq_fetched 1 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld2 {c : Dev nD} (dat : Dat τ (Elt F) Unit ℕ (Pipeline.UD sig nD τ) ℕ cfg1 c) (hA : dat.A 2 = V c (Pipeline.arrRef spec1 2))
    (hafter : ∀ t, dat.after 2 t = mixBlock V c 2 t) (t : Fin cfg1.N) (d) : dat.before 2 t d = mixBlock V c 2 t :=
  (dat.before_in_eq_fetched 2 rfl (fun _ => rfl) (fun _ _ _ => rfl) (fun t => by rw [hafter]; unfold Dat.blockOf mixBlock; rw [hA]; try rfl) t d).trans
    (by unfold Dat.fetched Dat.blockOf mixBlock; rw [hA]; try rfl)
theorem mixHeld3 {c : Dev nD} (dat : Dat τ (Elt F) Unit ℕ (Pipeline.UD sig nD τ) ℕ cfg1 c) (hA : dat.A 3 = V c (Pipeline.arrRef spec1 3))
    (hafter : ∀ t, dat.after 3 t = mixBlock V c 3 t) (t : Fin cfg1.N) (d) : dat.before 3 t d = mixBlock V c 3 t :=
  (dat.before_in_eq_fetched 3 rfl (fun _ => rfl) (fun _ _ _ => rfl) (fun t => by rw [hafter]; unfold Dat.blockOf mixBlock; rw [hA]; try rfl) t d).trans
    (by unfold Dat.fetched Dat.blockOf mixBlock; rw [hA]; try rfl)

/-! ## The operands the pipeline does not stage -/

/-- One staging buffer of the output window, through which its contents are stated (the choice does not matter). -/
abbrev outView : View sig .tc .vmem S1x256x1024 .f32 := (Memref.whole cc1_stg4_0 : Memref sig .tc .vmem S1x256x1024 .f32).view
/-- Each window's current staging buffer at point `t`, as the pipeline passes it to the body, and that it is whole. -/
abbrev mixM0 (t : Fin cfg1.N) : Memref sig .tc .vmem S1x256x1024 .f32 := win1_0.stage (cfg1.slots t 0)
abbrev mixH0 (t : Fin cfg1.N) : (mixM0 t).IsWhole := hstage1_0 ((cfg1.slots t 0).cast nbuf1_0)
abbrev mixM1 (t : Fin cfg1.N) : Memref sig .tc .vmem S1024x9216 .bf16 := win1_1.stage (cfg1.slots t 1)
abbrev mixH1 (t : Fin cfg1.N) : (mixM1 t).IsWhole := hstage1_1 ((cfg1.slots t 1).cast nbuf1_1)
abbrev mixM2 (t : Fin cfg1.N) : Memref sig .tc .vmem S1x1024 .f32 := win1_2.stage (cfg1.slots t 2)
abbrev mixH2 (t : Fin cfg1.N) : (mixM2 t).IsWhole := hstage1_2 ((cfg1.slots t 2).cast nbuf1_2)
abbrev mixM3 (t : Fin cfg1.N) : Memref sig .tc .vmem S1x1024 .f32 := win1_3.stage (cfg1.slots t 3)
abbrev mixH3 (t : Fin cfg1.N) : (mixM3 t).IsWhole := hstage1_3 ((cfg1.slots t 3).cast nbuf1_3)
abbrev mixM4 (t : Fin cfg1.N) : Memref sig .tc .vmem S1x256x1024 .f32 := win1_4.stage (cfg1.slots t 4)
abbrev mixH4 (t : Fin cfg1.N) : (mixM4 t).IsWhole := hstage1_4 ((cfg1.slots t 4).cast nbuf1_4)
/-- The window scratch the body copies into, and the padded projection it copies from: whole buffers. -/
abbrev scratchM : Memref sig .tc .vmem S320x1024 .f32 := Memref.whole cc1_scratch0
abbrev paddedM : Memref sig .tc .hbm S4x4160x1024 .f32 := Memref.whole main_v7
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own copy-completion semaphore: the one cell of its semaphore operand; no window's staging cell. -/
abbrev mixSem : Fin 1 → SemLoc sig := fun j => (![SemLoc.dma 12] : Fin 1 → SemLoc sig) j
theorem mixSemFacts : Pipeline.OwnSemFacts spec1 mixSem := by decide
theorem mixSems0_eq (c : Dev nD) :
    (Pipeline.ownSems0 (Ix := Unit) (Name := ℕ) (U := Pipeline.UD sig nD τ) (Lvl := ℕ) (Val := Elt F) (τ := τ) mixSem c : sProp 𝕄)
      = iprop(semVal ((c : Thread nD τ), SemLoc.dma 12) 0) := by
  rw [Pipeline.ownSems0_eq_of_list c mixSem [0] (by decide) (by decide)]; rfl
/-- The array the body reads by its own copy: unscoped, no window's array. -/
def mixHbm : Finset (Ref sig .tc) := {main_v7}
theorem mixHbm_sub : mixHbm ⊆ Pipeline.restRefs sig spec1 := by decide
theorem mixHbmPts_eq (c : Dev nD) :
    (bigSep mixHbm (fun b => ((c : Thread nD τ).loc b) ↦{fullShare} V c b) : sProp 𝕄) = iprop(hbPt c paddedM (V c main_v7)) := by
  rw [BI.bigSep_eq_bigSepL_of_eq [main_v7] (by decide) (by decide)]; rfl

/-- The call's invariant conjunct by conjunct: the other call's staging buffers and this call's scratch at some
    contents, the random-number register at some state, the body's semaphore at zero, the padded projection at its contents
    when the call is entered. -/
theorem mixInv_eq (c : Dev nD) :
    (Pipeline.ΦD mixSem spec1 mixHbm V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scratchM fullShare d)) ∗ (∃ r, prngReg c r) ∗ iprop(semVal ((c : Thread nD τ), SemLoc.dma 12) 0) ∗ iprop(hbPt c paddedM (V c main_v7))) := by
  rw [Pipeline.ΦD_eq, scopedRest1_eq, mixSems0_eq, mixHbmPts_eq]; simp only [scratchM, owns_whole]; try rfl

/-! ## One call of the body -/

set_option maxHeartbeats 4000000 in
/-- The pieces the body's store leaves in the output's staging buffer, WITH the proof that on whole staging buffers —
    the four inputs' at their contents, the output's and the scratch at anything, the padded projection whole at
    `fh`, the body's semaphore at zero — the body runs to its return holding the inputs' as they were, the scratch at
    some contents, the padded projection and the semaphore as they were (the copy lent the window's rows, delivered
    the scratch and was waited for), and the output's buffer with its pieces written. -/
noncomputable def mixRun (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) :
    { L : List (View.Piece (Elt F) S1x256x1024 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ semVal ((c : Thread nD τ), SemLoc.dma 12) 0 ∗ hbPt c paddedM fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ (∃ d, owns (c : Thread nD τ) arg8 fullShare d) ∗ semVal ((c : Thread nD τ), SemLoc.dma 12) 0 ∗ hbPt c paddedM fh ∗ (∃ W', owes (c : Thread nD τ) 0 W')) -∗ K ⟨⟩))
          ⊢ wp frame (wpE (defs₀ (F := F)) Variants.none c none) Set.univ (cc1__mixer_kernel i arg2 harg2 (Memref.whole main_v7) (Memref.isWhole_whole _) arg4 harg4 arg5 harg5 arg6 harg6 arg7 harg7 arg8 harg8 cc1_scratch1) K } := by
  refine ⟨?_, fun W K => ?run⟩
  case run =>
    simp only [cc1__mixer_kernel_eq_skeleton]; unfold cc1__mixer_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hq0, Hh0, HW, Hk⟩
    obtain rfl := harg2.eq_unread hf0
    obtain rfl := harg4.eq_unread hf1
    obtain rfl := harg5.eq_unread hf2
    obtain rfl := harg6.eq_unread hf3
    sl_exec
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [Hq0]; · iexact Hq0
    isplitl [Hh0]; · iexact Hh0
    iexists _; iexact HW

end Cert.KernelIdeal.Hand

end
-- ==== Proof.KernelIdealMixer.lean ====
/-
  The mixer call's proof data and per-point obligation: the output block after the body at a grid point is what the
  body's one store leaves, read back; each input window's buffer holds its block; the invariant lends the body its
  scratch, its semaphore and the padded projection and takes them back unchanged.
-/
import proofs.«120279_j30434138259751_2_alg».proof.Proof.KernelIdealMixerRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's one store covers the whole output block. -/
theorem mixCover (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) (y : S1x256x1024.Idx) :
    ∃ pc ∈ (mixRun c i arg2 harg2 arg4 harg4 arg5 harg5 arg6 harg6 arg7 harg7 arg8 harg8 x0 x1 x2 x3 fh).1, y ∈ pc.1.set :=
  View.cover_of_tiledL (mixRun c i arg2 harg2 arg4 harg4 arg5 harg5 arg6 harg6 arg7 harg7 arg8 harg8 x0 x1 x2 x3 fh).1 S1x256x1024.size (by sl_kernel_rfl) y

/-- What the body leaves in the output's staging buffer: its store read back (over anything: the store covers it). -/
def mixOut (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) : Vec F S1x256x1024 .f32 :=
  outView.read (Elt F) (outView.writes (Elt F) outView.junk (mixRun c i arg2 harg2 arg4 harg4 arg5 harg5 arg6 harg6 arg7 harg7 arg8 harg8 x0 x1 x2 x3 fh).1)

/-- The output block after the body at grid point `t`: `mixOut` at the point's buffers, its four input blocks and the
    padded projection as the call finds it. -/
def mixOutAt (c : Dev nD) (t : Fin cfg1.N) : Vec F S1x256x1024 .f32 :=
  mixOut c (grid1.coords t) (mixM0 t) (mixH0 t) (mixM1 t) (mixH1 t) (mixM2 t) (mixH2 t) (mixM3 t) (mixH3 t) (mixM4 t) (mixH4 t) scratchM (Memref.isWhole_whole _)
    (mixBlock V c 0 t) (mixBlock V c 1 t) (mixBlock V c 2 t) (mixBlock V c 3 t) (V c main_v7)

/-- The proof data of the call on core `c`: the arrays as the call finds them; after the body at point `t` each
    input's buffer at its block and the output's at `mixOutAt`; the invariant of a body with a copy of its own;
    nothing owed; full shares. -/
def mixDat (c : Dev nD) : Dat τ (Elt F) Unit ℕ (Pipeline.UD sig nD τ) ℕ cfg1 c where
  A w := V c (Pipeline.arrRef spec1 w)
  after w t := match w with
    | ⟨0, _⟩ => mixBlock V c 0 t
    | ⟨1, _⟩ => mixBlock V c 1 t
    | ⟨2, _⟩ => mixBlock V c 2 t
    | ⟨3, _⟩ => mixBlock V c 3 t
    | ⟨4, _⟩ => mixOutAt V c t
  Φ _ := Pipeline.ΦD mixSem spec1 mixHbm V c
  q _ := fullShare
  owed _ := 0

theorem mixDat_A (c : Dev nD) (w : Fin cfg1.W) : (mixDat V c).A w = V c (Pipeline.arrRef spec1 w) := by
  dsimp only [mixDat]
theorem mixAfter0 (c : Dev nD) (t : Fin cfg1.N) : (mixDat V c).after 0 t = mixBlock V c 0 t := by dsimp only [mixDat]
theorem mixAfter1 (c : Dev nD) (t : Fin cfg1.N) : (mixDat V c).after 1 t = mixBlock V c 1 t := by dsimp only [mixDat]
theorem mixAfter2 (c : Dev nD) (t : Fin cfg1.N) : (mixDat V c).after 2 t = mixBlock V c 2 t := by dsimp only [mixDat]
theorem mixAfter3 (c : Dev nD) (t : Fin cfg1.N) : (mixDat V c).after 3 t = mixBlock V c 3 t := by dsimp only [mixDat]
theorem mixAfter4 (c : Dev nD) (t : Fin cfg1.N) : (mixDat V c).after 4 t = mixOutAt V c t := by dsimp only [mixDat]

theorem mixBefore0 (c : Dev nD) (t : Fin cfg1.N) (d) : (mixDat V c).before 0 t d = mixBlock V c 0 t :=
  mixHeld0 V (mixDat V c) (mixDat_A V c 0) (mixAfter0 V c) t d
theorem mixBefore1 (c : Dev nD) (t : Fin cfg1.N) (d) : (mixDat V c).before 1 t d = mixBlock V c 1 t :=
  mixHeld1 V (mixDat V c) (mixDat_A V c 1) (mixAfter1 V c) t d
theorem mixBefore2 (c : Dev nD) (t : Fin cfg1.N) (d) : (mixDat V c).before 2 t d = mixBlock V c 2 t :=
  mixHeld2 V (mixDat V c) (mixDat_A V c 2) (mixAfter2 V c) t d
theorem mixBefore3 (c : Dev nD) (t : Fin cfg1.N) (d) : (mixDat V c).before 3 t d = mixBlock V c 3 t :=
  mixHeld3 V (mixDat V c) (mixDat_A V c 3) (mixAfter3 V c) t d

/-- What the body is called with at point `t`, window by window, -/
def mixPre (c : Dev nD) (t : Fin cfg1.N) : sProp 𝕄 :=
  iprop((mixDat V c).Φ t.castSucc ∗ (mixDat V c).owesAt () t.castSucc
    ∗ (∃ d, owns (c : Thread nD τ) (mixM0 t) fullShare ((mixDat V c).before 0 t d))
    ∗ (∃ d, owns (c : Thread nD τ) (mixM1 t) fullShare ((mixDat V c).before 1 t d))
    ∗ (∃ d, owns (c : Thread nD τ) (mixM2 t) fullShare ((mixDat V c).before 2 t d))
    ∗ (∃ d, owns (c : Thread nD τ) (mixM3 t) fullShare ((mixDat V c).before 3 t d))
    ∗ (∃ d, owns (c : Thread nD τ) (mixM4 t) fullShare ((mixDat V c).before 4 t d)))

/-- and what it returns. -/
def mixPost (c : Dev nD) (t : Fin cfg1.N) : sProp 𝕄 :=
  iprop((mixDat V c).Φ t.succ ∗ (mixDat V c).owesAt () t.succ
    ∗ owns (c : Thread nD τ) (mixM0 t) fullShare ((mixDat V c).after 0 t)
    ∗ owns (c : Thread nD τ) (mixM1 t) fullShare ((mixDat V c).after 1 t)
    ∗ owns (c : Thread nD τ) (mixM2 t) fullShare ((mixDat V c).after 2 t)
    ∗ owns (c : Thread nD τ) (mixM3 t) fullShare ((mixDat V c).after 3 t)
    ∗ owns (c : Thread nD τ) (mixM4 t) fullShare ((mixDat V c).after 4 t))

/-- The body at any point: the inputs' buffers hold their blocks, so the run applies; the invariant hands the body its
    scratch, the register, its semaphore at zero and the padded projection, and takes them back as they were; what the
    core owes goes in as the earlier points left it and comes back with this point's wait recorded. -/
theorem mixSound (c : Dev nD) (t : Fin cfg1.N) :
    mixPre V c t ⊢ wp frame (wpE (defs₀ (F := F)) Variants.none c none) Set.univ (bodyAt1 t) (fun _ => mixPost V c t) := by
  unfold mixPre mixPost bodyAt1
  simp only [mixBefore0, mixBefore1, mixBefore2, mixBefore3]
  rw [show (mixDat V c).Φ t.succ = (mixDat V c).Φ t.castSucc from rfl,
    mixAfter0, mixAfter1, mixAfter2, mixAfter3, mixAfter4]
  rw [show (mixDat V c).Φ t.castSucc = Pipeline.ΦD mixSem spec1 mixHbm V c from rfl, mixInv_eq]
  unfold Dat.owesAt Pipeline.owesWithin
  rw [show (mixDat V c).owed t.castSucc = 0 from rfl, show (mixDat V c).owed t.succ = 0 from rfl]
  unfold mixOutAt
  unfold mixOut
  iintro ⟨⟨⟨HR0, HR1, HR2, HR3, HR4, HS0⟩, Hg, Hq0, Hh0⟩, ⟨%W, -, HW⟩, ⟨%d0, H0⟩, ⟨%d1, H1⟩, ⟨%d2, H2⟩, ⟨%d3, H3⟩, ⟨%d4, H4⟩⟩
  iapply ((mixRun c (grid1.coords t) _ _ _ _ _ _ _ _ _ _ _ _ (mixBlock V c 0 t) (mixBlock V c 1 t) (mixBlock V c 2 t) (mixBlock V c 3 t) (V c main_v7)).2 W _)
  isplitl [H0]; · iexact H0
  isplitl [H1]; · iexact H1
  isplitl [H2]; · iexact H2
  isplitl [H3]; · iexact H3
  isplitl [H4]; · iexists _; iexact H4
  isplitl [HS0]; · iexact HS0
  isplitl [Hq0]; · iexact Hq0
  isplitl [Hh0]; · iexact Hh0
  isplitl [HW]; · iexact HW
  iintro ⟨H0, H1, H2, H3, ⟨%e4, H4⟩, HS0, Hq0, Hh0, ⟨%W', HW'⟩⟩
  isplitl [HR0 HR1 HR2 HR3 HR4 HS0 Hg Hq0 Hh0]
  · isplitl [HR0 HR1 HR2 HR3 HR4 HS0]
    · isplitl [HR0]; · iexact HR0
      isplitl [HR1]; · iexact HR1
      isplitl [HR2]; · iexact HR2
      isplitl [HR3]; · iexact HR3
      isplitl [HR4]; · iexact HR4
      iexact HS0
    isplitl [Hg]
    · iexact Hg
    isplitl [Hq0]
    · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (mixCover c _ _ _ _ _ _ _ _ _ _ _ _ _ _ _ _ _ _)

/-- The per-point obligation of the pipeline, at every point. -/
theorem mixObligation (c : Dev nD) : BodyObligation (mixDat (F := F) V c) (defs₀ (F := F)) Variants.none () Set.univ := fun t => by
  rw [bigSep_W1, bigSep_W1]
  exact mixSound V c t

end Cert.KernelIdeal.Hand

end
-- ==== Proof.KernelIdealRun.lean ====
/-
  The whole program as a run of four segments — the host's transposes and roundings; the value projection; the host's
  circular padding and the two reshapes; the mixer — from any launch memory: the contents of every buffer at each
  boundary, as a fold from the launch memory (a host stretch applies its operations; a kernel call leaves its
  arrays at what its write-backs make of them); each call as a segment entered from one boundary's contents and left at
  the next's; and the run: every weakly fair execution terminates, and the final memory holds every unscoped buffer
  at the last boundary's contents. The argument arrays come back to the launch contents through the fold; the result
  array is what the mixer's write-backs leave.
-/
import proofs.«120279_j30434138259751_2_alg».proof.Proof.KernelIdealProjection
import proofs.«120279_j30434138259751_2_alg».proof.Proof.KernelIdealMixer
import proofs.«120279_j30434138259751_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m ((c : Dev nD), b)
/-- After the first host stretch: the transposed, rounded matrices are there (the projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection: its arrays at what the pipeline leaves, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projLeaves (c : Dev nD) (w : Fin cfg0.W) : (projDat (V1 m) c).arrAt w cfg0.N = V2 m c (Pipeline.arrRef spec0 w) :=
  (W2_arr m c w).symm
theorem projKeeps (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the padded projection and the reshaped scale and shift are there (the mixer's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the mixer: its arrays at what the pipeline leaves, every other buffer as entered. -/
def W4 (c : Dev nD) : Valuation τ sig (Elt F) :=
  Pipeline.withArrays spec1 c (W3 m c) fun w => (mixDat (V3 m) c).arrAt w cfg1.N
theorem W4_arr (c : Dev nD) (w : Fin cfg1.W) :
    W4 m c (Proc.devRef .tc (Pipeline.arrRef spec1 w)) = (mixDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem mixLeaves (c : Dev nD) (w : Fin cfg1.W) : (mixDat (V3 m) c).arrAt w cfg1.N = V4 m c (Pipeline.arrRef spec1 w) :=
  (W4_arr m c w).symm
theorem mixKeeps (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### No segment writes an argument: the fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((mixDat (V3 m) c).arrAt_in 0 rfl _).trans (mixDat_A (V3 m) c 0))
    _ = W2 m c (Proc.devRef .tc main_arg0) := StableHlo.after_of_writes_sub hostOps1 _ hostOps1_writes (by decide)
    _ = W1 m c (Proc.devRef .tc main_arg0) := (W2_arr m c 0).trans (((projDat (V1 m) c).arrAt_in 0 rfl _).trans (projDat_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each pipeline's proof data at its call's entry contents. -/
def pdats : (p : Fin 2) → (c : Dev nD) → Dat τ (Elt F) Unit ℕ (Pipeline.UD sig nD τ) ℕ (Pipeline.pin (pcfgs (F := F)) adm p) c
  | ⟨0, _⟩ => fun c => projDat (V1 m) c
  | ⟨1, _⟩ => fun c => mixDat (V3 m) c
abbrev 𝒱₀ : Variants := Variants.none
abbrev L : GSem nD τ sig → Finset Unit := fun _ => ∅
abbrev lv : GSem nD τ sig → Unit → ℕ := fun _ _ => 0
/-- What rides beside the buffers through every segment: the random-number register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The projection over the thread state: entered from every unscoped buffer at `W1`, left at `W2`. Its arrays are
    split out of the unscoped buffers and put back at the exit contents; the register goes into the invariant and
    comes out; nothing is owed; the kernel has no semaphore of its own. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (projLeaves m c) (projKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The mixer over the thread state: entered from every unscoped buffer at `W3`, left at `W4`. Besides its arrays
    and the register, the body's own semaphore (at zero from the boundary, and back) and the padded projection it copies
    from (split out of the bypassing buffers and rejoined) go through the invariant. -/
def mixSeg : Pipeline.RegionSeg (pcfgs (F := F)) adm (pdats m) () defs₀ 𝒱₀ L lv 1 where
  win := launch1.win.to₀
  block_pos := launch1.block_pos
  stage_whole := launch1.stage_whole
  K := Fin 1
  osem := mixSem
  ho := mixSemFacts
  hbody c := (mixObligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) mixSem c ∗ (bigSep mixHbm fun b => (((c : Thread nD τ)).loc b) ↦{fullShare} V3 m c b))
  Y c := iprop((∃ r, prngReg c r) ∗ (bigSep mixHbm fun b => (((c : Thread nD τ)).loc b) ↦{fullShare} V3 m c b))
  Z c := bigSep (Pipeline.restRefs sig spec1 \ mixHbm) fun b => (((c : Thread nD τ)).loc b) ↦{fullShare} V3 m c b
  hentry c := by
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    have hH : (Pipeline.unscopedRest (Ix := Unit) (Name := ℕ) (U := Pipeline.UD sig nD τ) (Lvl := ℕ) spec1 c (V3 m c) : sProp 𝕄)
        = iprop((bigSep mixHbm fun b => (((c : Thread nD τ)).loc b) ↦{fullShare} V3 m c b) ∗ (bigSep (Pipeline.restRefs sig spec1 \ mixHbm) fun b => (((c : Thread nD τ)).loc b) ↦{fullShare} V3 m c b)) := by
      unfold Pipeline.unscopedRest; exact BI.bigSep_sdiff_split mixHbm_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = Pipeline.ΦD mixSem spec1 mixHbm (V3 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m 1 c).Φ (Fin.last _) = Pipeline.ΦD mixSem spec1 mixHbm (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (mixLeaves m c) (mixKeeps m c)
    rw [Pipeline.unscopedBufs_held] at hjoin
    have hH : (Pipeline.unscopedRest (Ix := Unit) (Name := ℕ) (U := Pipeline.UD sig nD τ) (Lvl := ℕ) spec1 c (V3 m c) : sProp 𝕄)
        = iprop((bigSep mixHbm fun b => (((c : Thread nD τ)).loc b) ↦{fullShare} V3 m c b) ∗ (bigSep (Pipeline.restRefs sig spec1 \ mixHbm) fun b => (((c : Thread nD τ)).loc b) ↦{fullShare} V3 m c b)) := by
      unfold Pipeline.unscopedRest; exact BI.bigSep_sdiff_split mixHbm_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (projSeg m),
    .host (hseg hostOps1 hostOps1_sub hostOps1_fresh (W2 m)),
    .region (mixSeg m) ]
theorem main_run (c : Dev nD) : main (F := F) c = Pipeline.Seg.run (segs m) := (main_chain c).trans (by chain_rfl)

set_option backward.isDefEq.respectTransparency.types false in
/-- THE RUN, at any instance of the float operations: from any memory with zero counters every weakly fair execution
    of the program terminates, nothing faulting, and the final memory holds every unscoped buffer at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.KernelIdealProjValue.lean ====
/-
  The value projection's arithmetic read at an index, over the extended reals: for the activation block v0[0, r, k]
  and the (transposed) matrix v3[k, e], the block the body stores holds at (0, r, e) the sum over k of
  v0[0, r, k] · v3[k, e] — a matrix product into a zero accumulator, the rounding of its operands being the identity
  on the extended reals.
-/
import proofs.«120279_j30434138259751_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.ValueIdx
open scoped BigOperators

theorem projL0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem projL1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem projR0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem projR1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product at (r, e): the row of the left block against the column of the right one. -/
theorem projDot_apply (l : FVec Ideal S512x1024 .bf16) (rr : FVec Ideal S1024x1024 .bf16) (p : Fin 512) (q : Fin 1024) :
    matmul (F := Ideal) dot_S512x1024_S1024x1024_S512x1024_1_0_0_1_n_n none l rr (constant (F := Ideal) S512x1024 .f32 0x00000000#32) (ix2 p q)
      = ∑ k : Fin 1024, l (ix2 p k) * rr (ix2 k q) := by
  refine (Ideal.matmul_constant_zero_apply dot_S512x1024_S1024x1024_S512x1024_1_0_0_1_n_n none l rr (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k :=
    funext fun a => Fin.ext (by
      match a with
      | ⟨0, _⟩ => exact projL0 _ _
      | ⟨1, _⟩ => exact (projL1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q :=
    funext fun a => Fin.ext (by
      match a with
      | ⟨0, _⟩ => exact (projR0 _ _).trans hk
      | ⟨1, _⟩ => exact projR1 _ _)
  rw [el, er]

/-- THE PAYLOAD AT AN INDEX. -/
theorem pay_apply (v0 : Vec Ideal S1x512x1024 .f32) (v3 : Vec Ideal S1024x1024 .bf16) (u : Fin 1) (r : Fin 512) (e : Fin 1024) :
    k0_pay1 v0 v3 (ix3 u r e) = ∑ k : Fin 1024, v0 (ix3 (0 : Fin 1) r k) * v3 (ix2 k e) := by
  unfold k0_pay1
  refine (shapeCast_ab_1ab_apply _ shapeCasts_S512x1024_S1x512x1024 u r e).trans ?_
  show matmul (F := Ideal) dot_S512x1024_S1024x1024_S512x1024_1_0_0_1_n_n none (truncf .bf16 (shapeCast S512x1024 v0 shapeCasts_S1x512x1024_S512x1024) bitsLt_bf16_f32)
      (shapeCast S1024x1024 v3 shapeCasts_S1024x1024_S1024x1024) (constant (F := Ideal) S512x1024 .f32 0x00000000#32) (ix2 r e) = _
  rw [projDot_apply]
  refine Finset.sum_congr rfl fun k _ => ?_
  have e0 : (truncf .bf16 (shapeCast S512x1024 v0 shapeCasts_S1x512x1024_S512x1024) bitsLt_bf16_f32 : FVec Ideal S512x1024 .bf16) (ix2 r k) = v0 (ix3 (0 : Fin 1) r k) :=
    shapeCast_1ab_ab_apply v0 shapeCasts_S1x512x1024_S512x1024 r k
  have e1 : (shapeCast S1024x1024 v3 shapeCasts_S1024x1024_S1024x1024) (ix2 k e) = v3 (ix2 k e) :=
    shapeCast_apply v3 shapeCasts_S1024x1024_S1024x1024 _ _ rfl
  rw [e0, e1]

end Cert.KernelIdeal.ProjValue

end
-- ==== Proof.KernelIdealProjArray.lean ====
/-
  From blocks to the array, for the value projection: what grid point (b, l) writes back is rows [512 l, 512 l + 512)
  of batch b of ONE function of the two arrays the call reads — at (b, p, e) the sum over k of X[b, p, k] · WT[k, e] —,
  and the 4 x 8 blocks tile the array; so after the call the projected array IS that function.
-/
import proofs.«120279_j30434138259751_2_alg».proof.Proof.KernelIdealProjection
import proofs.«120279_j30434138259751_2_alg».proof.Proof.KernelIdealProjValue

set_option maxRecDepth 16384

noncomputable section

namespace Cert.KernelIdeal.Hand

open Cert.KernelIdeal Cert.KernelIdeal.Gen Cert.KernelIdeal.ProjValue
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem zeros3' : (![0, 0, 0] : Fin 3 → Nat) = fun _ => 0 := funext fun a => by fin_cases a <;> rfl
theorem zeros2' : (![0, 0] : Fin 2 → Nat) = fun _ => 0 := funext fun a => by fin_cases a <;> rfl

/-- The projected array as one function of the activations and the (transposed) matrix. -/
def projArr (X : S4x4096x1024.Idx → EReal) (WT : S1024x1024.Idx → EReal) : S4x4096x1024.Idx → EReal :=
  fun i => ∑ k : Fin 1024, X (ix3 (⟨(i 0).val, (i 0).isLt⟩ : Fin 4) (⟨(i 1).val, (i 1).isLt⟩ : Fin 4096) k) * WT (ix2 k (⟨(i 2).val, (i 2).isLt⟩ : Fin 1024))

/-- The printed index maps, decided over the grid: the activation block moves with the output block, the matrix
    block stays, and the output's block indices range over the 4 x 8 box. -/
theorem projIdx : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = 0 ∧ win0_1.index t (1 : Fin 2) = 0
    ∧ win0_2.index t (0 : Fin 3) ≤ 3 ∧ win0_2.index t (1 : Fin 3) ≤ 7 ∧ win0_2.index t (2 : Fin 3) = 0 :=
  (by decide +kernel : ∀ t : Fin grid0.N, _)

/-- Every block of the box is some point's. -/
theorem projOnto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- WHAT POINT `t` WRITES BACK is block `t` of `projArr` of the arrays as the call finds them. -/
theorem projFlushed (c : Dev nD) (t : Fin cfg0.N) :
    (projDat V c).flushed 2 t = ((cfg0.win 2).blk t).view.read (Elt Ideal) (projArr (V c main_arg0) (V c main_v1)) := by
  show (cfg0.win 2).cut (grid0.coords t) ((projDat V c).after 2 t) = _
  rw [projAfter2]
  unfold projOut
  rw [View.canon_unit_zero zeros3']
  simp only [View.ld_unit_zero (S := S1x512x1024) zeros3', View.ld_unit_zero (S := S1024x1024) zeros2']
  obtain ⟨e0, e1, e2, e3, e4, e5, e6, e7⟩ := projIdx t
  funext j
  obtain ⟨u, r, e, rfl⟩ : ∃ (u : Fin 1) (r : Fin 512) (e : Fin 1024), j = ix3 u r e := ⟨j 0, j 1, j 2, eq_ix3 j⟩
  refine (pay_apply (projBlock V c 0 t) (projBlock V c 1 t) u r e).trans ?_
  show _ = projArr (V c main_arg0) (V c main_v1) (((cfg0.win 2).blk t).view.emb (ix3 u r e))
  unfold projArr
  refine Finset.sum_congr rfl fun k _ => ?_
  have hu : u.val = 0 := by omega
  have hr := r.isLt
  have he := e.isLt
  have hk := k.isLt
  have h0 : projBlock V c 0 t (ix3 (0 : Fin 1) r k)
      = V c main_arg0 (ix3 (⟨((((cfg0.win 2).blk t).view.emb (ix3 u r e)) 0).val, ((((cfg0.win 2).blk t).view.emb (ix3 u r e)) 0).isLt⟩ : Fin 4)
          (⟨((((cfg0.win 2).blk t).view.emb (ix3 u r e)) 1).val, ((((cfg0.win 2).blk t).view.emb (ix3 u r e)) 1).isLt⟩ : Fin 4096) k) := by
    show V c main_arg0 (((cfg0.win 0).blk t).view.emb (ix3 (0 : Fin 1) r k)) = V c main_arg0 _
    refine congrArg (V c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 512 + 1 * r.val = win0_2.index t (1 : Fin 3) * 512 + 1 * r.val; omega
    | ⟨2, _⟩ => show win0_0.index t (2 : Fin 3) * 1024 + 1 * k.val = k.val; omega
  have h1 : projBlock V c 1 t (ix2 k e)
      = V c main_v1 (ix2 k (⟨((((cfg0.win 2).blk t).view.emb (ix3 u r e)) 2).val, ((((cfg0.win 2).blk t).view.emb (ix3 u r e)) 2).isLt⟩ : Fin 1024)) := by
    show V c main_v1 (((cfg0.win 1).blk t).view.emb (ix2 k e)) = V c main_v1 _
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 1024 + 1 * e.val = win0_2.index t (2 : Fin 3) * 1024 + 1 * e.val; omega
  rw [h0, h1]

/-- An index of the array is in point `t`'s block iff each coordinate is in the block's range on its axis. -/
theorem projMem (t : Fin cfg0.N) (i : S4x4096x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v4).slice (win0_2.rect t)).set ↔ _
  rw [View.set_slice_whole, Rect.mem_set_unit]
  exact Iff.rfl

/-- The blocks cover the array: row p of batch b is in the block of point (b, p / 512). -/
theorem projCovers (i : S4x4096x1024.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  obtain ⟨t, ht⟩ := projOnto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [projMem]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE PROJECTED ARRAY after the call. -/
theorem projFinal (c : Dev nD) : (projDat V c).arrAt 2 cfg0.N = projArr (V c main_arg0) (V c main_v1) :=
  (projDat V c).arrAt_eq_of_cover 2 _ (fun t _ => projFlushed V c t) projCovers

end Cert.KernelIdeal.Hand

end
-- ==== Proof.KernelIdealMixerPiece.lean ====
/-
  What the mixer's one store leaves in its output block, named: the body's arithmetic (the generated payload terms)
  applied to the activation block, the gate matrix, the scale and shift rows as held in their staging buffers, and to
  the WINDOW of the padded projection — rows [256 l, 256 l + 320) of batch b — that the body's own copy delivered to
  its scratch. The copy writes the whole scratch, so the load that follows reads exactly the window.
-/
import proofs.«120279_j30434138259751_2_alg».proof.Proof.KernelIdealMixer
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem zeros3 : (![0, 0, 0] : Fin 3 → Nat) = fun _ => 0 := funext fun a => by fin_cases a <;> rfl
theorem zeros2 : (![0, 0] : Fin 2 → Nat) = fun _ => 0 := funext fun a => by fin_cases a <;> rfl

/-- The copy's source at grid point `i` = (b, l): rows [256 l, 256 l + 320) of batch b of the padded projection, the
    slice the body takes of the whole array, its unit batch axis dropped. -/
abbrev srcM (i : grid1.Coords) : Memref sig .tc .hbm S320x1024 .f32 :=
  ((Memref.whole main_v7).slice (Rect.unit (s := S4x4160x1024) (k1_off1 i) S1x320x1024.size (k1_off1_inb i)) (fun _ => rfl)).squeeze
    S320x1024 squeezes_S1x320x1024_S320x1024

/-- The window the copy delivers, of the padded projection `fh`. -/
abbrev window (c : Dev nD) (i : grid1.Coords) (fh : HbBuf (F := F) c paddedM) : Vec F S320x1024 .f32 :=
  ReadAs.same.apply ((srcM i).view.read (Elt F) fh)

/-- The output block after the body, in the body's own arithmetic. -/
theorem mixOut_eq (c : Dev nD) (i : grid1.Coords) (arg2 : Memref sig .tc .vmem S1x256x1024 .f32) (harg2 : arg2.IsWhole)
    (arg4 : Memref sig .tc .vmem S1024x9216 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x256x1024 .f32) (harg7 : arg7.IsWhole)
    (arg8 : Memref sig .tc .vmem S320x1024 .f32) (harg8 : arg8.IsWhole)
    (x0 : Vec F S1x256x1024 .f32) (x1 : Vec F S1024x9216 .bf16) (x2 : Vec F S1x1024 .f32) (x3 : Vec F S1x1024 .f32) (fh : HbBuf (F := F) c paddedM) :
    mixOut c i arg2 harg2 arg4 harg4 arg5 harg5 arg6 harg6 arg7 harg7 arg8 harg8 x0 x1 x2 x3 fh
      = k1_pay1 (k1_pay2 x0 x1) (window c i fh) (k1_pay3 x0 x1 (window c i fh)) (k1_pay4 (window c i fh)) x2 x3 := by
  unfold mixOut
  rw [View.read_writes_eq_canon _ _ _ (mixCover c i arg2 harg2 arg4 harg4 arg5 harg5 arg6 harg6 arg7 harg7 arg8 harg8 x0 x1 x2 x3 fh)]
  unfold mixRun
  dsimp only
  sl_unfold_run_names
  rw [View.canon_unit_zero zeros3]
  simp only [View.readAt_eq_ld, harg2.read_unread, harg4.read_unread, harg5.read_unread, harg6.read_unread,
    View.ld_unit_zero (S := S1x256x1024) zeros3, View.ld_unit_zero (S := S1024x9216) zeros2, View.ld_unit_zero (S := S1x1024) zeros2]
  -- the scratch, loaded whole right after the copy wrote it whole, reads what the copy delivered
  rw [View.readCov_eq_canon_ld _ _ _ (fun y => ⟨_, List.mem_singleton_self _, View.mem_set_unit_zero (off := fun _ => 0) rfl (fun _ => (Nat.zero_add _).le) y⟩),
    View.ld_unit_zero (S := S320x1024) zeros2]
  have hc : ∀ W : S320x1024.Idx → Elt F .f32, View.canon [(⟨Rect.whole S320x1024, W⟩ : View.Piece (Elt F) S320x1024 .f32)] = W :=
    fun W => View.canon_unit_zero (off := fun _ => 0) rfl _ W
  simp only [hc]

end Cert.KernelIdeal.Hand

end
-- ==== Proof.MixSpec.lean ====
/-
  The mathematics of the gated shift mixer, with no program in sight. For activations X[b, l, k], gate weights
  GW[j, k], value weights VW[e, k], a scale γ and a shift β:
    • the projection           v[b, l, e] = Σ_k X[b, l, k] · VW[e, k];
    • the gates                s[b, l, j] = logistic (Σ_k X[b, l, k] · GW[j, k]),  j < 9·1024;
    • nine taps along the sequence, tap g reading row (l + o_g) mod 4096 with
        o = (0, −32, −16, −4, −1, 1, 4, 16, 32) taken mod 4096;
    • the mix                  a[b, l, d] = Σ_g v[b, (l + o_g) mod 4096, d] · s[b, l, 1024 g + d];
    • a LayerNorm of each row a[b, l, ·]: with μ the row's mean and σ² the mean of the squared deviations,
        ((a − μ) · rsqrt (σ² + ε)) · γ[d] + β[d].
  Everything is over the extended reals, with the division, the reciprocal square root and the logistic function the
  float operations denote there; 1024 and ε are the float words both programs spell. One law is proved here: a running
  sum of nine products started from zero is the sum over the nine taps of the products commuted.
-/
import Idealize.ShloMosaic.PureOps.Ideal
import Idealize.ShloMosaic.PureOps.Ideal.Laws
import Idealize.ShloMosaic.Lib.ValueIdx

noncomputable section

namespace Cert.Mix

open Idealize.ShloMosaic Idealize.ShloMosaic.ValueIdx
open scoped BigOperators

/-- The nine taps' row offsets, modulo the sequence length. -/
def tapOff : Fin 9 → ℕ := ![0, 4064, 4080, 4092, 4095, 1, 4, 16, 32]

/-- The row tap `g` reads for row `l`. -/
def tapRow (g : Fin 9) (l : Fin 4096) : Fin 4096 := ⟨(l.val + tapOff g) % 4096, Nat.mod_lt _ (by norm_num)⟩

/-- The gate column of tap `g` and channel `d`. -/
def gateCol (g : Fin 9) (d : Fin 1024) : Fin 9216 := ⟨1024 * g.val + d.val, by have := g.isLt; have := d.isLt; omega⟩

/-- The projection. -/
def proj (X : (⟨3, ![4, 4096, 1024]⟩ : Shape).Idx → EReal) (VW : (⟨2, ![1024, 1024]⟩ : Shape).Idx → EReal)
    (b : Fin 4) (l : Fin 4096) (e : Fin 1024) : EReal :=
  ∑ k : Fin 1024, X (ix3 b l k) * VW (ix2 e k)

/-- The gates. -/
def gate (X : (⟨3, ![4, 4096, 1024]⟩ : Shape).Idx → EReal) (GW : (⟨2, ![9216, 1024]⟩ : Shape).Idx → EReal)
    (b : Fin 4) (l : Fin 4096) (j : Fin 9216) : EReal :=
  Ideal.logistic (∑ k : Fin 1024, X (ix3 b l k) * GW (ix2 j k))

/-- The mix of the nine taps. -/
def mixed (X : (⟨3, ![4, 4096, 1024]⟩ : Shape).Idx → EReal) (GW : (⟨2, ![9216, 1024]⟩ : Shape).Idx → EReal)
    (VW : (⟨2, ![1024, 1024]⟩ : Shape).Idx → EReal) (b : Fin 4) (l : Fin 4096) (d : Fin 1024) : EReal :=
  ∑ g : Fin 9, proj X VW b (tapRow g l) d * gate X GW b l (gateCol g d)

/-- The row length and the variance offset, as the float words both programs spell. -/
def rowLen : EReal := Ideal.ofBits .f32 0x44800000#32
def varEps : EReal := Ideal.ofBits .f32 0x3727C5AC#32

/-- A row's mean. -/
def rowMean (a : Fin 1024 → EReal) : EReal := Ideal.div (∑ d : Fin 1024, a d) rowLen

/-- The LayerNorm of a row, at channel `d`. -/
def lnorm (a γ β : Fin 1024 → EReal) (d : Fin 1024) : EReal :=
  (a d - rowMean a) * Ideal.rsqrt (rowMean (fun e => (a e - rowMean a) * (a e - rowMean a)) + varEps) * γ d + β d

/-- The result at (b, l, d). -/
def resultAt (X : (⟨3, ![4, 4096, 1024]⟩ : Shape).Idx → EReal) (GW : (⟨2, ![9216, 1024]⟩ : Shape).Idx → EReal)
    (VW : (⟨2, ![1024, 1024]⟩ : Shape).Idx → EReal) (γ β : (⟨1, ![1024]⟩ : Shape).Idx → EReal)
    (b : Fin 4) (l : Fin 4096) (d : Fin 1024) : EReal :=
  lnorm (fun e => mixed X GW VW b l e) (fun e => γ (ix1 e)) (fun e => β (ix1 e)) d

/-- The result array. -/
def result (X : (⟨3, ![4, 4096, 1024]⟩ : Shape).Idx → EReal) (GW : (⟨2, ![9216, 1024]⟩ : Shape).Idx → EReal)
    (VW : (⟨2, ![1024, 1024]⟩ : Shape).Idx → EReal) (γ β : (⟨1, ![1024]⟩ : Shape).Idx → EReal) :
    (⟨3, ![4, 4096, 1024]⟩ : Shape).Idx → EReal :=
  fun i => resultAt X GW VW γ β ⟨(i 0).val, (i 0).isLt⟩ ⟨(i 1).val, (i 1).isLt⟩ ⟨(i 2).val, (i 2).isLt⟩

theorem result_ix3 (X : (⟨3, ![4, 4096, 1024]⟩ : Shape).Idx → EReal) (GW : (⟨2, ![9216, 1024]⟩ : Shape).Idx → EReal)
    (VW : (⟨2, ![1024, 1024]⟩ : Shape).Idx → EReal) (γ β : (⟨1, ![1024]⟩ : Shape).Idx → EReal)
    (b : Fin 4) (l : Fin 4096) (d : Fin 1024) :
    result X GW VW γ β (ix3 b l d) = resultAt X GW VW γ β b l d := rfl

/-- A sum over nine taps, written out. -/
theorem sum_nine (f : Fin 9 → EReal) : ∑ k : Fin 9, f k = f 0 + f 1 + f 2 + f 3 + f 4 + f 5 + f 6 + f 7 + f 8 := by
  simp only [Fin.sum_univ_succ, Fin.sum_univ_zero, add_zero, ← add_assoc]
  rfl

/-- A running sum of nine products `s · v` started from the zero word is the sum over the taps of `v · s`: addition
    and multiplication of extended reals are commutative and associative, and zero is neutral (no distributivity, so no
    finiteness is needed). -/
theorem running_nine (v s : Fin 9 → EReal) :
    Ideal.ofBits .f32 0x00000000#32 + s 0 * v 0 + s 1 * v 1 + s 2 * v 2 + s 3 * v 3 + s 4 * v 4 + s 5 * v 5 + s 6 * v 6 + s 7 * v 7 + s 8 * v 8
      = ∑ g : Fin 9, v g * s g := by
  rw [sum_nine, Ideal.ofBits_zero_f32, zero_add]
  simp only [mul_comm (s _) (v _)]

end Cert.Mix

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KernelIdealMixValue.lean ====
/-
  The mixer's arithmetic read at an index, over the extended reals. For the activation block x0[0, r, k], the gate
  matrix x1[k, j], a window w[r', d] of the padded projection and the scale and shift rows x2[0, d], x3[0, d], the
  block the body stores holds at (0, r, d) the LayerNorm of the row
      a[e] = Σ_g w[r + q_g, e] · logistic (Σ_k x0[0, r, k] · x1[k, 1024 g + e]),   q = (32, 0, 16, 28, 31, 33, 36, 48, 64),
  with scale x2[0, ·] and shift x3[0, ·]: the gates are a matrix product into a zero accumulator followed by the logistic
  function; each tap is a row slice of the window times a column slice of the gates, added to a running sum started
  from zero; the statistics are lane sums kept as columns and broadcast back along the row.
-/
import proofs.«120279_j30434138259751_2_alg».proof.Proof.Gen.KernelIdeal.Skeleton
import proofs.«120279_j30434138259751_2_alg».proof.Proof.MixSpec
import proofs.«120279_j30434138259751_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MixValue

open Cert.KernelIdeal Cert.KernelIdeal.Gen Cert.Mix Cert.Lib.Keepdims
open Idealize.ShloMosaic Idealize.ShloMosaic.ValueIdx
open scoped BigOperators

/-- The window row tap `g` reads for block row `r`. -/
def winOff : Fin 9 → ℕ := ![32, 0, 16, 28, 31, 33, 36, 48, 64]
def winRow (g : Fin 9) (r : Fin 256) : Fin 320 :=
  ⟨r.val + winOff g, by have := r.isLt; fin_cases g <;> simp [winOff] <;> omega⟩

/-! ## The gates -/

theorem gateL0 (i : S256x9216.Idx) (q : dot_S256x1024_S1024x9216_S256x9216_1_0_0_1_n_n.contr.Idx) : (dot_S256x1024_S1024x9216_S256x9216_1_0_0_1_n_n.lhsIdx i q 0).val = (i 0).val := by
  unfold DotDims.lhsIdx
  rw [dif_neg (show ¬(0 : Fin S256x1024.rank) ∈ dot_S256x1024_S1024x9216_S256x9216_1_0_0_1_n_n.lhsBatch by decide), dif_pos (show (0 : Fin S256x1024.rank) ∈ dot_S256x1024_S1024x9216_S256x9216_1_0_0_1_n_n.lhsNonContracting by decide)]
  rfl
theorem gateL1 (i : S256x9216.Idx) (q : dot_S256x1024_S1024x9216_S256x9216_1_0_0_1_n_n.contr.Idx) : (dot_S256x1024_S1024x9216_S256x9216_1_0_0_1_n_n.lhsIdx i q 1).val = (q ⟨0, by decide⟩).val :=
  dot_S256x1024_S1024x9216_S256x9216_1_0_0_1_n_n.lhsIdx_val_of_single rfl i q
theorem gateR0 (i : S256x9216.Idx) (q : dot_S256x1024_S1024x9216_S256x9216_1_0_0_1_n_n.contr.Idx) : (dot_S256x1024_S1024x9216_S256x9216_1_0_0_1_n_n.rhsIdx i q 0).val = (q ⟨0, by decide⟩).val :=
  dot_S256x1024_S1024x9216_S256x9216_1_0_0_1_n_n.rhsIdx_val_of_single rfl i q
theorem gateR1 (i : S256x9216.Idx) (q : dot_S256x1024_S1024x9216_S256x9216_1_0_0_1_n_n.contr.Idx) : (dot_S256x1024_S1024x9216_S256x9216_1_0_0_1_n_n.rhsIdx i q 1).val = (i 1).val := by
  unfold DotDims.rhsIdx
  rw [dif_neg (show ¬(1 : Fin S1024x9216.rank) ∈ dot_S256x1024_S1024x9216_S256x9216_1_0_0_1_n_n.rhsBatch by decide), dif_pos (show (1 : Fin S1024x9216.rank) ∈ dot_S256x1024_S1024x9216_S256x9216_1_0_0_1_n_n.rhsNonContracting by decide)]
  rfl

/-- The gate product at (r, j): the row of the activation block against the column of the gate matrix. -/
theorem gateDot_apply (l : FVec Ideal S256x1024 .bf16) (rr : FVec Ideal S1024x9216 .bf16) (p : Fin 256) (q : Fin 9216) :
    matmul (F := Ideal) dot_S256x1024_S1024x9216_S256x9216_1_0_0_1_n_n none l rr (constant (F := Ideal) S256x9216 .f32 0x00000000#32) (ix2 p q)
      = ∑ k : Fin 1024, l (ix2 p k) * rr (ix2 k q) := by
  refine (Ideal.matmul_constant_zero_apply dot_S256x1024_S1024x9216_S256x9216_1_0_0_1_n_n none l rr (ix2 p q)).trans ?_
  rw [← Equiv.sum_comp (ValueIdx.contrEquiv1 dot_S256x1024_S1024x9216_S256x9216_1_0_0_1_n_n 1024 rfl rfl).symm]
  refine Finset.sum_congr rfl fun k _ => ?_
  have hk := ValueIdx.contrEquiv1_symm_val dot_S256x1024_S1024x9216_S256x9216_1_0_0_1_n_n 1024 rfl rfl k
  have el : dot_S256x1024_S1024x9216_S256x9216_1_0_0_1_n_n.lhsIdx (ix2 p q) ((ValueIdx.contrEquiv1 dot_S256x1024_S1024x9216_S256x9216_1_0_0_1_n_n 1024 rfl rfl).symm k) = ix2 p k :=
    funext fun a => Fin.ext (by
      match a with
      | ⟨0, _⟩ => exact gateL0 _ _
      | ⟨1, _⟩ => exact (gateL1 _ _).trans hk)
  have er : dot_S256x1024_S1024x9216_S256x9216_1_0_0_1_n_n.rhsIdx (ix2 p q) ((ValueIdx.contrEquiv1 dot_S256x1024_S1024x9216_S256x9216_1_0_0_1_n_n 1024 rfl rfl).symm k) = ix2 k q :=
    funext fun a => Fin.ext (by
      match a with
      | ⟨0, _⟩ => exact (gateR0 _ _).trans hk
      | ⟨1, _⟩ => exact gateR1 _ _)
  rw [el, er]

/-- The gate of block row `r` and gate column `j`. -/
def gateK (x0 : Vec Ideal S1x256x1024 .f32) (x1 : Vec Ideal S1024x9216 .bf16) (r : Fin 256) (j : Fin 9216) : EReal :=
  Ideal.logistic (∑ k : Fin 1024, x0 (ix3 (0 : Fin 1) r k) * x1 (ix2 k j))

theorem gates_apply (x0 : Vec Ideal S1x256x1024 .f32) (x1 : Vec Ideal S1024x9216 .bf16) (r : Fin 256) (j : Fin 9216) :
    k1_pay2 x0 x1 (ix2 r j) = gateK x0 x1 r j := by
  unfold k1_pay2 gateK
  show Ideal.logistic (matmul (F := Ideal) dot_S256x1024_S1024x9216_S256x9216_1_0_0_1_n_n none (truncf .bf16 (shapeCast S256x1024 x0 shapeCasts_S1x256x1024_S256x1024) bitsLt_bf16_f32) (shapeCast S1024x9216 x1 shapeCasts_S1024x9216_S1024x9216) (constant (F := Ideal) S256x9216 .f32 0x00000000#32) (ix2 r j)) = _
  rw [gateDot_apply]
  refine congrArg Ideal.logistic (Finset.sum_congr rfl fun k _ => ?_)
  have e0 : (truncf .bf16 (shapeCast S256x1024 x0 shapeCasts_S1x256x1024_S256x1024) bitsLt_bf16_f32 : FVec Ideal S256x1024 .bf16) (ix2 r k) = x0 (ix3 (0 : Fin 1) r k) :=
    shapeCast_1ab_ab_apply x0 shapeCasts_S1x256x1024_S256x1024 r k
  have e1 : (shapeCast S1024x9216 x1 shapeCasts_S1024x9216_S1024x9216) (ix2 k j) = x1 (ix2 k j) :=
    shapeCast_apply x1 shapeCasts_S1024x9216_S1024x9216 _ _ rfl
  rw [e0, e1]

/-! ## The nine taps -/

/-- One tap: a row slice of the window at offset `o` times a column slice of the gates at offset `1024 g`. -/
theorem winSlice_apply (w : Vec Ideal S320x1024 .f32) (o : ℕ) (h : S320x1024.Slices ![o, 0] S256x1024) (r : Fin 256) (e : Fin 1024)
    (k : Fin 320) (hk : k.val = o + r.val) :
    extractStridedSlice S256x1024 ![o, 0] w h (ix2 r e) = w (ix2 k e) :=
  slice2_axis0_apply o w h r e k hk

theorem gateSlice_apply (s : FVec Ideal S256x9216 .f32) (o : ℕ) (h : S256x9216.Slices ![0, o] S256x1024) (r : Fin 256) (e : Fin 1024)
    (k : Fin 9216) (hk : k.val = o + e.val) :
    extractStridedSlice S256x1024 ![0, o] s h (ix2 r e) = s (ix2 r k) :=
  slice2_axis1_apply o s h r e k hk

/-- The mixed row before normalisation, as the body accumulates it. -/
def accK (x0 : Vec Ideal S1x256x1024 .f32) (x1 : Vec Ideal S1024x9216 .bf16) (w : Vec Ideal S320x1024 .f32) (r : Fin 256) (e : Fin 1024) : EReal :=
  ∑ g : Fin 9, w (ix2 (winRow g r) e) * gateK x0 x1 r (gateCol g e)

/-- The body's running sum over the nine taps. -/
def accVec (x0 : Vec Ideal S1x256x1024 .f32) (x1 : Vec Ideal S1024x9216 .bf16) (w : Vec Ideal S320x1024 .f32) : FVec Ideal S256x1024 .f32 :=
  addf (addf (k1_pay3 x0 x1 w) (mulf (extractStridedSlice S256x1024 ![0, 7168] (k1_pay2 x0 x1) slices_S256x9216_o0_7168_S256x1024) (k1_pay4 w)))
    (mulf (extractStridedSlice S256x1024 ![0, 8192] (k1_pay2 x0 x1) slices_S256x9216_o0_8192_S256x1024)
      (extractStridedSlice S256x1024 ![64, 0] w slices_S320x1024_o64_0_S256x1024))

theorem accVec_apply (x0 : Vec Ideal S1x256x1024 .f32) (x1 : Vec Ideal S1024x9216 .bf16) (w : Vec Ideal S320x1024 .f32) (r : Fin 256) (e : Fin 1024) :
    accVec x0 x1 w (ix2 r e) = accK x0 x1 w r e := by
  have hr := r.isLt
  have he := e.isLt
  have W : ∀ (g : Fin 9) (o : ℕ) (h : S320x1024.Slices ![o, 0] S256x1024), o = winOff g →
      extractStridedSlice S256x1024 ![o, 0] w h (ix2 r e) = w (ix2 (winRow g r) e) := fun g o h ho =>
    winSlice_apply w o h r e (winRow g r) (by show r.val + winOff g = o + r.val; omega)
  have Gt : ∀ (g : Fin 9) (o : ℕ) (h : S256x9216.Slices ![0, o] S256x1024), o = 1024 * g.val →
      extractStridedSlice S256x1024 ![0, o] (k1_pay2 x0 x1) h (ix2 r e) = gateK x0 x1 r (gateCol g e) := fun g o h ho =>
    (gateSlice_apply (k1_pay2 x0 x1) o h r e (gateCol g e) (by show 1024 * g.val + e.val = o + e.val; omega)).trans (gates_apply x0 x1 r _)
  unfold accK
  rw [← running_nine (fun g => w (ix2 (winRow g r) e)) (fun g => gateK x0 x1 r (gateCol g e))]
  unfold accVec k1_pay3 k1_pay4
  show (((((((((Ideal.ofBits .f32 0x00000000#32
      + extractStridedSlice S256x1024 ![0, 0] (k1_pay2 x0 x1) slices_S256x9216_o0_0_S256x1024 (ix2 r e) * extractStridedSlice S256x1024 ![32, 0] w slices_S320x1024_o32_0_S256x1024 (ix2 r e))
      + extractStridedSlice S256x1024 ![0, 1024] (k1_pay2 x0 x1) slices_S256x9216_o0_1024_S256x1024 (ix2 r e) * extractStridedSlice S256x1024 ![0, 0] w slices_S320x1024_o0_0_S256x1024 (ix2 r e))
      + extractStridedSlice S256x1024 ![0, 2048] (k1_pay2 x0 x1) slices_S256x9216_o0_2048_S256x1024 (ix2 r e) * extractStridedSlice S256x1024 ![16, 0] w slices_S320x1024_o16_0_S256x1024 (ix2 r e))
      + extractStridedSlice S256x1024 ![0, 3072] (k1_pay2 x0 x1) slices_S256x9216_o0_3072_S256x1024 (ix2 r e) * extractStridedSlice S256x1024 ![28, 0] w slices_S320x1024_o28_0_S256x1024 (ix2 r e))
      + extractStridedSlice S256x1024 ![0, 4096] (k1_pay2 x0 x1) slices_S256x9216_o0_4096_S256x1024 (ix2 r e) * extractStridedSlice S256x1024 ![31, 0] w slices_S320x1024_o31_0_S256x1024 (ix2 r e))
      + extractStridedSlice S256x1024 ![0, 5120] (k1_pay2 x0 x1) slices_S256x9216_o0_5120_S256x1024 (ix2 r e) * extractStridedSlice S256x1024 ![33, 0] w slices_S320x1024_o33_0_S256x1024 (ix2 r e))
      + extractStridedSlice S256x1024 ![0, 6144] (k1_pay2 x0 x1) slices_S256x9216_o0_6144_S256x1024 (ix2 r e) * extractStridedSlice S256x1024 ![36, 0] w slices_S320x1024_o36_0_S256x1024 (ix2 r e))
      + extractStridedSlice S256x1024 ![0, 7168] (k1_pay2 x0 x1) slices_S256x9216_o0_7168_S256x1024 (ix2 r e) * extractStridedSlice S256x1024 ![48, 0] w slices_S320x1024_o48_0_S256x1024 (ix2 r e))
      + extractStridedSlice S256x1024 ![0, 8192] (k1_pay2 x0 x1) slices_S256x9216_o0_8192_S256x1024 (ix2 r e) * extractStridedSlice S256x1024 ![64, 0] w slices_S320x1024_o64_0_S256x1024 (ix2 r e))
    = _
  rw [W 0 32 _ rfl, W 1 0 _ rfl, W 2 16 _ rfl, W 3 28 _ rfl, W 4 31 _ rfl, W 5 33 _ rfl, W 6 36 _ rfl, W 7 48 _ rfl, W 8 64 _ rfl,
    Gt 0 0 _ rfl, Gt 1 1024 _ rfl, Gt 2 2048 _ rfl, Gt 3 3072 _ rfl, Gt 4 4096 _ rfl, Gt 5 5120 _ rfl, Gt 6 6144 _ rfl, Gt 7 7168 _ rfl, Gt 8 8192 _ rfl]

/-! ## The LayerNorm tail -/

/-- The mean of each row of a block, kept as a column: the lane sum cast to a column and divided by the row length. -/
def colMean (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

theorem colMean_apply (v : FVec Ideal S256x1024 .f32) (r : Fin 256) (u : Fin 1) :
    colMean v (ix2 r u) = rowMean (fun e => v (ix2 r e)) := by
  unfold colMean
  show Ideal.div (shapeCast S256x1 (multiReduction .add [1] S256 v 0x00000000#32 reduces_S256x1024_S256 (.inl rfl) rfl) shapeCasts_S256_S256x1 (ix2 r u)) (Ideal.ofBits .f32 0x44800000#32) = _
  unfold rowMean rowLen
  refine congrArg (fun z => Ideal.div z (Ideal.ofBits .f32 0x44800000#32)) ?_
  refine (shapeCast_a_a1_apply _ shapeCasts_S256_S256x1 r u).trans ?_
  exact rowSum_apply v 0x00000000#32 reduces_S256x1024_S256 (.inl rfl) rfl r

/-- Each row less its mean. -/
def centered (v : FVec Ideal S256x1024 .f32) : FVec Ideal S256x1024 .f32 :=
  subf v (broadcastTo S256x1024 (colMean v) broadcasts_S256x1_S256x1024)

theorem centered_apply (v : FVec Ideal S256x1024 .f32) (r : Fin 256) (e : Fin 1024) :
    centered v (ix2 r e) = v (ix2 r e) - rowMean (fun e => v (ix2 r e)) := by
  unfold centered
  show v (ix2 r e) - broadcastTo S256x1024 (colMean v) broadcasts_S256x1_S256x1024 (ix2 r e) = _
  rw [broadcastTo_a1_ab_apply (colMean v) broadcasts_S256x1_S256x1024 r e, colMean_apply]

/-- The reciprocal standard deviation of each row, as a column. -/
def invStd (v : FVec Ideal S256x1024 .f32) : FVec Ideal S256x1 .f32 :=
  rsqrt (addf (colMean (mulf (centered v) (centered v))) (broadcast S256x1 (Scalar.ofBits .f32 0x3727C5AC#32)))

theorem invStd_apply (v : FVec Ideal S256x1024 .f32) (r : Fin 256) (u : Fin 1) :
    invStd v (ix2 r u) = Ideal.rsqrt (rowMean (fun e => (v (ix2 r e) - rowMean (fun e => v (ix2 r e))) * (v (ix2 r e) - rowMean (fun e => v (ix2 r e)))) + varEps) := by
  unfold invStd
  show Ideal.rsqrt (colMean (mulf (centered v) (centered v)) (ix2 r u) + Ideal.ofBits .f32 0x3727C5AC#32) = _
  rw [colMean_apply]
  unfold varEps
  refine congrArg (fun z => Ideal.rsqrt (rowMean z + Ideal.ofBits .f32 0x3727C5AC#32)) (funext fun e => ?_)
  show centered v (ix2 r e) * centered v (ix2 r e) = _
  rw [centered_apply]

/-- A [1, 1024] row (the scale, the shift) broadcast down the block's rows, as the body spells it. -/
def rowBcast (x : Vec Ideal S1x1024 .f32) : FVec Ideal S256x1024 .f32 :=
  broadcastTo S256x1024 (shapeCast S1x1024 (shapeCast S1024 x shapeCasts_S1x1024_S1024) shapeCasts_S1024_S1x1024) broadcasts_S1x1024_S256x1024

theorem rowBcast_apply (x : Vec Ideal S1x1024 .f32) (r : Fin 256) (d : Fin 1024) : rowBcast x (ix2 r d) = x (ix2 (0 : Fin 1) d) := by
  unfold rowBcast
  exact (broadcastTo_1b_ab_apply _ broadcasts_S1x1024_S256x1024 r d).trans
    ((shapeCast_a_1a_apply _ shapeCasts_S1024_S1x1024 0 d).trans (shapeCast_1a_a_apply x shapeCasts_S1x1024_S1024 d))

/-- The body's arithmetic after the mix, on any mixed block. -/
def lnTail (v : FVec Ideal S256x1024 .f32) (x2 x3 : Vec Ideal S1x1024 .f32) : FVec Ideal S1x256x1024 .f32 :=
  shapeCast S1x256x1024 (addf (mulf (mulf (centered v) (broadcastTo S256x1024 (invStd v) broadcasts_S256x1_S256x1024)) (rowBcast x2)) (rowBcast x3))
    shapeCasts_S256x1024_S1x256x1024

theorem lnTail_apply (v : FVec Ideal S256x1024 .f32) (x2 x3 : Vec Ideal S1x1024 .f32) (r : Fin 256) (d : Fin 1024) :
    lnTail v x2 x3 (ix3 (0 : Fin 1) r d)
      = lnorm (fun e => v (ix2 r e)) (fun e => x2 (ix2 (0 : Fin 1) e)) (fun e => x3 (ix2 (0 : Fin 1) e)) d := by
  unfold lnTail
  refine (shapeCast_ab_1ab_apply _ shapeCasts_S256x1024_S1x256x1024 0 r d).trans ?_
  show centered v (ix2 r d) * broadcastTo S256x1024 (invStd v) broadcasts_S256x1_S256x1024 (ix2 r d) * rowBcast x2 (ix2 r d) + rowBcast x3 (ix2 r d) = _
  rw [centered_apply, broadcastTo_a1_ab_apply (invStd v) broadcasts_S256x1_S256x1024 r d, invStd_apply, rowBcast_apply, rowBcast_apply]
  rfl

/-- The stored payload IS the tail applied to the running sum of the nine taps. -/
theorem pay1_eq (x0 : Vec Ideal S1x256x1024 .f32) (x1 : Vec Ideal S1024x9216 .bf16) (w : Vec Ideal S320x1024 .f32) (x2 x3 : Vec Ideal S1x1024 .f32) :
    k1_pay1 (k1_pay2 x0 x1) w (k1_pay3 x0 x1 w) (k1_pay4 w) x2 x3 = lnTail (accVec x0 x1 w) x2 x3 := rfl

/-- THE PAYLOAD AT AN INDEX. -/
theorem pay1_apply (x0 : Vec Ideal S1x256x1024 .f32) (x1 : Vec Ideal S1024x9216 .bf16) (w : Vec Ideal S320x1024 .f32) (x2 x3 : Vec Ideal S1x1024 .f32)
    (r : Fin 256) (d : Fin 1024) :
    k1_pay1 (k1_pay2 x0 x1) w (k1_pay3 x0 x1 w) (k1_pay4 w) x2 x3 (ix3 (0 : Fin 1) r d)
      = lnorm (fun e => accK x0 x1 w r e) (fun e => x2 (ix2 (0 : Fin 1) e)) (fun e => x3 (ix2 (0 : Fin 1) e)) d := by
  rw [pay1_eq, lnTail_apply]
  exact congrArg (fun a => lnorm a _ _ d) (funext fun e => accVec_apply x0 x1 w r e)

end Cert.KernelIdeal.MixValue

end
-- ==== Proof.KernelIdealMixArray.lean ====
/-
  From blocks to the array, for the mixer: what grid point (b, l) writes back is rows [256 l, 256 l + 256) of batch b of
  ONE function of the five arrays the call reads — at (b, p, d) the LayerNorm, with the scale and shift rows, of the row
      a[e] = Σ_g P[b, p + q_g, e] · logistic (Σ_k X[b, p, k] · GWT[k, 1024 g + e]),   q = (32, 0, 16, 28, 31, 33, 36, 48, 64),
  where P is the padded projection: the activation block and the output block move together, the other three windows
  stay, and the body's own copy reads P from row 256 l of batch b. The 4 x 16 blocks tile the array, so after the call
  the result array IS that function.
-/
import proofs.«120279_j30434138259751_2_alg».proof.Proof.KernelIdealMixerPiece
import proofs.«120279_j30434138259751_2_alg».proof.Proof.KernelIdealMixValue

set_option maxRecDepth 16384

noncomputable section

namespace Cert.KernelIdeal.Hand

open Cert.KernelIdeal Cert.KernelIdeal.Gen Cert.KernelIdeal.MixValue Cert.Mix
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The row of the padded projection tap `g` reads for row `l`. -/
def padRow (g : Fin 9) (l : Fin 4096) : Fin 4160 :=
  ⟨l.val + winOff g, by have := l.isLt; fin_cases g <;> simp [winOff] <;> omega⟩

/-- The result at (b, l, d), from the arrays the mixer reads. -/
def mixAt (X : S4x4096x1024.Idx → EReal) (GWT : S1024x9216.Idx → EReal) (P : S4x4160x1024.Idx → EReal) (γ2 β2 : S1x1024.Idx → EReal)
    (b : Fin 4) (l : Fin 4096) (d : Fin 1024) : EReal :=
  lnorm (fun e => ∑ g : Fin 9, P (ix3 b (padRow g l) e) * Ideal.logistic (∑ k : Fin 1024, X (ix3 b l k) * GWT (ix2 k (gateCol g e))))
    (fun e => γ2 (ix2 (0 : Fin 1) e)) (fun e => β2 (ix2 (0 : Fin 1) e)) d

/-- The result array as one function of the arrays the mixer reads. -/
def mixArr (X : S4x4096x1024.Idx → EReal) (GWT : S1024x9216.Idx → EReal) (P : S4x4160x1024.Idx → EReal) (γ2 β2 : S1x1024.Idx → EReal) :
    S4x4096x1024.Idx → EReal :=
  fun i => mixAt X GWT P γ2 β2 (⟨(i 0).val, (i 0).isLt⟩ : Fin 4) (⟨(i 1).val, (i 1).isLt⟩ : Fin 4096) (⟨(i 2).val, (i 2).isLt⟩ : Fin 1024)

theorem lnorm_congr {a a' γ γ' β β' : Fin 1024 → EReal} {d d' : Fin 1024} (ha : a = a') (hγ : γ = γ') (hβ : β = β') (hd : d = d') :
    lnorm a γ β d = lnorm a' γ' β' d' := by subst ha hγ hβ hd; rfl

/-- The printed index maps and the copy's offsets, decided over the grid. -/
theorem mixIdx : ∀ t : Fin cfg1.N,
    win1_0.index t (0 : Fin 3) = win1_4.index t (0 : Fin 3) ∧ win1_0.index t (1 : Fin 3) = win1_4.index t (1 : Fin 3)
    ∧ win1_0.index t (2 : Fin 3) = 0 ∧ win1_1.index t (0 : Fin 2) = 0 ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0
    ∧ win1_4.index t (0 : Fin 3) ≤ 3 ∧ win1_4.index t (1 : Fin 3) ≤ 15 ∧ win1_4.index t (2 : Fin 3) = 0
    ∧ k1_off1 (grid1.coords t) (0 : Fin 3) = win1_4.index t (0 : Fin 3)
    ∧ k1_off1 (grid1.coords t) (1 : Fin 3) = win1_4.index t (1 : Fin 3) * 256
    ∧ k1_off1 (grid1.coords t) (2 : Fin 3) = 0 :=
  (by decide +kernel : ∀ t : Fin grid1.N, _)

/-- Every block of the box is some point's. -/
theorem mixOnto : ∀ (q0 : Fin 4) (q1 : Fin 16), ∃ t : Fin cfg1.N, win1_4.index t = ![q0.val, q1.val, 0] :=
  (by decide +kernel : ∀ (q0 : Fin 4) (q1 : Fin 16), ∃ t : Fin grid1.N, win1_4.index t = ![q0.val, q1.val, 0])

/-- The window the body's copy delivers at point `t`, read at (r', e): the padded projection at batch b, row 256 l + r'. -/
theorem window_apply (c : Dev nD) (t : Fin cfg1.N) (fh : HbBuf (F := Ideal) c paddedM) (r' : Fin 320) (e : Fin 1024)
    (b : Fin 4) (p : Fin 4160) (hb : b.val = win1_4.index t (0 : Fin 3)) (hp : p.val = win1_4.index t (1 : Fin 3) * 256 + r'.val) :
    window c (grid1.coords t) fh (ix2 r' e) = fh (ix3 b p e) := by
  obtain ⟨-, -, -, -, -, -, -, -, -, -, -, -, o0, o1, o2⟩ := mixIdx t
  show fh ((srcM (grid1.coords t)).view.emb (ix2 r' e)) = _
  refine congrArg fh (funext fun a => Fin.ext ?_)
  show k1_off1 (grid1.coords t) a + 1 * ((Shape.reshapeEquiv (Shape.Squeezes.numel_eq squeezes_S1x320x1024_S320x1024) (ix2 r' e)) a).val = _
  rw [reshapeEquiv_ix2_1ab]
  match a with
  | ⟨0, _⟩ => show k1_off1 (grid1.coords t) (0 : Fin 3) + 1 * 0 = b.val; omega
  | ⟨1, _⟩ => show k1_off1 (grid1.coords t) (1 : Fin 3) + 1 * r'.val = p.val; omega
  | ⟨2, _⟩ => show k1_off1 (grid1.coords t) (2 : Fin 3) + 1 * e.val = e.val; omega

/-- WHAT POINT `t` WRITES BACK is block `t` of `mixArr` of the arrays as the call finds them. -/
theorem mixFlushed (c : Dev nD) (t : Fin cfg1.N) :
    (mixDat V c).flushed 4 t = ((cfg1.win 4).blk t).view.read (Elt Ideal)
      (mixArr (V c main_arg0) (V c main_v3) (V c main_v7) (V c main_v8) (V c main_v9)) := by
  show (cfg1.win 4).cut (grid1.coords t) ((mixDat V c).after 4 t) = _
  rw [mixAfter4]
  unfold mixOutAt
  rw [mixOut_eq]
  obtain ⟨e0, e1, e2, e3, e4, e5, e6, e7, e8, e9, e10, e11, o0, o1, o2⟩ := mixIdx t
  funext j
  obtain ⟨u, r, d, rfl⟩ : ∃ (u : Fin 1) (r : Fin 256) (d : Fin 1024), j = ix3 u r d := ⟨j 0, j 1, j 2, eq_ix3 j⟩
  have hu : u = 0 := Fin.ext (by omega)
  subst hu
  have hr := r.isLt
  have hd := d.isLt
  refine (pay1_apply (mixBlock V c 0 t) (mixBlock V c 1 t) (window c (grid1.coords t) (V c main_v7)) (mixBlock V c 2 t) (mixBlock V c 3 t) r d).trans ?_
  show _ = mixArr (V c main_arg0) (V c main_v3) (V c main_v7) (V c main_v8) (V c main_v9) (((cfg1.win 4).blk t).view.emb (ix3 (0 : Fin 1) r d))
  unfold mixArr mixAt
  refine lnorm_congr (funext fun e => ?_) (funext fun e => ?_) (funext fun e => ?_) (Fin.ext ?_)
  · -- the mixed row
    unfold accK gateK
    refine Finset.sum_congr rfl fun g _ => ?_
    have hg : winOff g ≤ 64 := by fin_cases g <;> simp [winOff]
    have hw := window_apply c t (V c main_v7) (winRow g r) e
      (⟨((((cfg1.win 4).blk t).view.emb (ix3 (0 : Fin 1) r d)) 0).val, ((((cfg1.win 4).blk t).view.emb (ix3 (0 : Fin 1) r d)) 0).isLt⟩ : Fin 4)
      (padRow g (⟨((((cfg1.win 4).blk t).view.emb (ix3 (0 : Fin 1) r d)) 1).val, ((((cfg1.win 4).blk t).view.emb (ix3 (0 : Fin 1) r d)) 1).isLt⟩ : Fin 4096))
      (by show win1_4.index t (0 : Fin 3) * 1 + 1 * 0 = win1_4.index t (0 : Fin 3); omega)
      (by show (win1_4.index t (1 : Fin 3) * 256 + 1 * r.val) + winOff g = win1_4.index t (1 : Fin 3) * 256 + (r.val + winOff g); omega)
    rw [hw]
    refine congrArg (fun z => _ * Ideal.logistic z) (Finset.sum_congr rfl fun k _ => ?_)
    have hk := k.isLt
    have h0 : mixBlock V c 0 t (ix3 (0 : Fin 1) r k)
        = V c main_arg0 (ix3 (⟨((((cfg1.win 4).blk t).view.emb (ix3 (0 : Fin 1) r d)) 0).val, ((((cfg1.win 4).blk t).view.emb (ix3 (0 : Fin 1) r d)) 0).isLt⟩ : Fin 4)
            (⟨((((cfg1.win 4).blk t).view.emb (ix3 (0 : Fin 1) r d)) 1).val, ((((cfg1.win 4).blk t).view.emb (ix3 (0 : Fin 1) r d)) 1).isLt⟩ : Fin 4096) k) := by
      show V c main_arg0 (((cfg1.win 0).blk t).view.emb (ix3 (0 : Fin 1) r k)) = V c main_arg0 _
      refine congrArg (V c main_arg0) (funext fun a => Fin.ext ?_)
      match a with
      | ⟨0, _⟩ => show win1_0.index t (0 : Fin 3) * 1 + 1 * 0 = win1_4.index t (0 : Fin 3) * 1 + 1 * 0; omega
      | ⟨1, _⟩ => show win1_0.index t (1 : Fin 3) * 256 + 1 * r.val = win1_4.index t (1 : Fin 3) * 256 + 1 * r.val; omega
      | ⟨2, _⟩ => show win1_0.index t (2 : Fin 3) * 1024 + 1 * k.val = k.val; omega
    have h1 : mixBlock V c 1 t (ix2 k (gateCol g e)) = V c main_v3 (ix2 k (gateCol g e)) := by
      show V c main_v3 (((cfg1.win 1).blk t).view.emb (ix2 k (gateCol g e))) = V c main_v3 _
      refine congrArg (V c main_v3) (funext fun a => Fin.ext ?_)
      match a with
      | ⟨0, _⟩ => show win1_1.index t (0 : Fin 2) * 1024 + 1 * k.val = k.val; omega
      | ⟨1, _⟩ => show win1_1.index t (1 : Fin 2) * 9216 + 1 * (gateCol g e).val = (gateCol g e).val; omega
    rw [h0, h1]
  · -- the scale row
    show mixBlock V c 2 t (ix2 (0 : Fin 1) e) = V c main_v8 (ix2 (0 : Fin 1) e)
    show V c main_v8 (((cfg1.win 2).blk t).view.emb (ix2 (0 : Fin 1) e)) = V c main_v8 _
    refine congrArg (V c main_v8) (funext fun a => Fin.ext ?_)
    match a with
    | ⟨0, _⟩ => show win1_2.index t (0 : Fin 2) * 1 + 1 * 0 = 0; omega
    | ⟨1, _⟩ => show win1_2.index t (1 : Fin 2) * 1024 + 1 * e.val = e.val; omega
  · -- the shift row
    show mixBlock V c 3 t (ix2 (0 : Fin 1) e) = V c main_v9 (ix2 (0 : Fin 1) e)
    show V c main_v9 (((cfg1.win 3).blk t).view.emb (ix2 (0 : Fin 1) e)) = V c main_v9 _
    refine congrArg (V c main_v9) (funext fun a => Fin.ext ?_)
    match a with
    | ⟨0, _⟩ => show win1_3.index t (0 : Fin 2) * 1 + 1 * 0 = 0; omega
    | ⟨1, _⟩ => show win1_3.index t (1 : Fin 2) * 1024 + 1 * e.val = e.val; omega
  · show d.val = win1_4.index t (2 : Fin 3) * 1024 + 1 * d.val; omega

/-- An index of the array is in point `t`'s block iff each coordinate is in the block's range on its axis. -/
theorem mixMem (t : Fin cfg1.N) (i : S4x4096x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v10).slice (win1_4.rect t)).set ↔ _
  rw [View.set_slice_whole, Rect.mem_set_unit]
  exact Iff.rfl

/-- The blocks cover the array: row p of batch b is in the block of point (b, p / 256). -/
theorem mixCovers (i : S4x4096x1024.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1024 := (i 2).isLt
  obtain ⟨t, ht⟩ := mixOnto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mixMem]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

/-- THE RESULT ARRAY after the call. -/
theorem mixFinal (c : Dev nD) : (mixDat V c).arrAt 4 cfg1.N = mixArr (V c main_arg0) (V c main_v3) (V c main_v7) (V c main_v8) (V c main_v9) :=
  (mixDat V c).arrAt_eq_of_cover 4 _ (fun t _ => mixFlushed V c t) mixCovers

end Cert.KernelIdeal.Hand

end
-- ==== Proof.KernelIdealWhole.lean ====
/-
  The kernel program's result, whole: through the fold of the run's boundaries, the result array after the mixer is the
  spec's `result` of the five argument arrays. The host's first stretch transposes the two weight matrices (the
  rounding is the identity on the extended reals); the projection leaves Σ_k X[b, p, k] · VW[e, k]; the host's second
  stretch pads it circularly by 32 rows at each end — row p of the padded array is row (p + 4064) mod 4096 of the
  projection — and reshapes the scale and shift to rows; the mixer reads tap g at padded row l + q_g, which is the
  projection's row (l + o_g) mod 4096 since q_g + 4064 ≡ o_g modulo 4096.
-/
import proofs.«120279_j30434138259751_2_alg».proof.Proof.KernelIdealRun
import proofs.«120279_j30434138259751_2_alg».proof.Proof.KernelIdealProjArray
import proofs.«120279_j30434138259751_2_alg».proof.Proof.KernelIdealMixArray
import Idealize.ShloMosaic.Lib.StableHlo.Run

set_option maxRecDepth 16384

noncomputable section

namespace Cert.KernelIdeal.Hand

open Cert.KernelIdeal Cert.KernelIdeal.Gen Cert.KernelIdeal.MixValue Cert.Mix
open Idealize.ShloMosaic Idealize.ShloMosaic.TcCoe Idealize.ShloMosaic.ValueIdx Idealize.ShloMosaic.StableHlo
open Idealize.SL Idealize.SL.Sem
open Idealize.ShloMosaic.Pipeline (Dat Cfg Window)
open scoped BigOperators

variable (m : (ℓ : Loc nD τ sig) → Buf (Elt Ideal) ℓ)

/-! ## What the first host stretch leaves -/

theorem V1_arg0 (c : Dev nD) : V1 m c main_arg0 = m ((c : Thread nD τ).loc main_arg0) :=
  StableHlo.after_of_writes_sub hostOps0 _ hostOps0_writes (by decide)

theorem V1_v1 (c : Dev nD) :
    @Eq (S1024x1024.Idx → EReal) (V1 m c main_v1)
      (truncf (F := Ideal) .bf16 (transpose S1024x1024 [1, 0] (m ((c : Thread nD τ).loc main_arg2) : S1024x1024.Idx → EReal) transposes_S1024x1024_S1024x1024_1_0) bitsLt_bf16_f32) := by
  show StableHlo.after hostOps0 (W0 m c) (Proc.devRef .tc main_v1) = _
  after_results

theorem V1_v3 (c : Dev nD) :
    @Eq (S1024x9216.Idx → EReal) (V1 m c main_v3)
      (truncf (F := Ideal) .bf16 (transpose S1024x9216 [1, 0] (m ((c : Thread nD τ).loc main_arg1) : S9216x1024.Idx → EReal) transposes_S9216x1024_S1024x9216_1_0) bitsLt_bf16_f32) := by
  show StableHlo.after hostOps0 (W0 m c) (Proc.devRef .tc main_v3) = _
  after_results

/-- The transposed value weights at (k, e) and the transposed gate weights at (k, j). -/
theorem V1_v1_apply (c : Dev nD) (k e : Fin 1024) :
    @Eq EReal (V1 m c main_v1 (ix2 k e)) ((m ((c : Thread nD τ).loc main_arg2) : S1024x1024.Idx → EReal) (ix2 e k)) := by
  refine (congrFun (V1_v1 m c) (ix2 k e)).trans ?_
  exact transpose_ix2_apply (m ((c : Thread nD τ).loc main_arg2) : S1024x1024.Idx → EReal) transposes_S1024x1024_S1024x1024_1_0 k e
theorem V1_v3_apply (c : Dev nD) (k : Fin 1024) (j : Fin 9216) :
    @Eq EReal (V1 m c main_v3 (ix2 k j)) ((m ((c : Thread nD τ).loc main_arg1) : S9216x1024.Idx → EReal) (ix2 j k)) := by
  refine (congrFun (V1_v3 m c) (ix2 k j)).trans ?_
  exact transpose_ix2_apply (m ((c : Thread nD τ).loc main_arg1) : S9216x1024.Idx → EReal) transposes_S9216x1024_S1024x9216_1_0 k j

/-! ## The projection -/

theorem W2_v4 (c : Dev nD) : @Eq (S4x4096x1024.Idx → EReal) (W2 m c (Proc.devRef .tc main_v4)) (projArr (V1 m c main_arg0) (V1 m c main_v1)) :=
  (W2_arr m c 2).trans (projFinal (V1 m) c)

/-- The projected array at (b, q, e). -/
theorem W2_v4_apply (c : Dev nD) (b : Fin 4) (q : Fin 4096) (e : Fin 1024) :
    @Eq EReal (W2 m c (Proc.devRef .tc main_v4) (ix3 b q e))
      (proj (m ((c : Thread nD τ).loc main_arg0)) (m ((c : Thread nD τ).loc main_arg2)) b q e) := by
  refine (congrFun (W2_v4 m c) (ix3 b q e)).trans ?_
  show @Eq EReal (projArr (V1 m c main_arg0) (V1 m c main_v1) (ix3 b q e))
    (proj (m ((c : Thread nD τ).loc main_arg0)) (m ((c : Thread nD τ).loc main_arg2)) b q e)
  unfold projArr proj
  refine Finset.sum_congr rfl fun k _ => ?_
  rw [V1_arg0]
  exact congrArg (HMul.hMul (α := EReal) (β := EReal) (γ := EReal) _) (V1_v1_apply m c k e)

/-! ## What the second host stretch leaves -/

theorem V3_arg0 (c : Dev nD) : V3 m c main_arg0 = m ((c : Thread nD τ).loc main_arg0) :=
  calc W3 m c (Proc.devRef .tc main_arg0)
    _ = W2 m c (Proc.devRef .tc main_arg0) := StableHlo.after_of_writes_sub hostOps1 _ hostOps1_writes (by decide)
    _ = W1 m c (Proc.devRef .tc main_arg0) := (W2_arr m c 0).trans (((projDat (V1 m) c).arrAt_in 0 rfl _).trans (projDat_A (V1 m) c 0))
    _ = W0 m c (Proc.devRef .tc main_arg0) := StableHlo.after_of_writes_sub hostOps0 _ hostOps0_writes (by decide)
    _ = m ((c : Thread nD τ).loc main_arg0) := rfl

theorem V3_v3 (c : Dev nD) : V3 m c main_v3 = V1 m c main_v3 :=
  calc W3 m c (Proc.devRef .tc main_v3)
    _ = W2 m c (Proc.devRef .tc main_v3) := StableHlo.after_of_writes_sub hostOps1 _ hostOps1_writes (by decide)
    _ = W1 m c (Proc.devRef .tc main_v3) := W2_of_ne m c main_v3 (by decide)

theorem W2_arg3 (c : Dev nD) : W2 m c (Proc.devRef .tc main_arg3) = m ((c : Thread nD τ).loc main_arg3) :=
  (W2_of_ne m c main_arg3 (by decide)).trans (StableHlo.after_of_writes_sub hostOps0 _ hostOps0_writes (by decide))
theorem W2_arg4 (c : Dev nD) : W2 m c (Proc.devRef .tc main_arg4) = m ((c : Thread nD τ).loc main_arg4) :=
  (W2_of_ne m c main_arg4 (by decide)).trans (StableHlo.after_of_writes_sub hostOps0 _ hostOps0_writes (by decide))

theorem V3_v8 (c : Dev nD) :
    @Eq (S1x1024.Idx → EReal) (V3 m c main_v8) (shapeCast S1x1024 (W2 m c (Proc.devRef .tc main_arg3) : S1024.Idx → EReal) shapeCasts_S1024_S1x1024) := by
  show StableHlo.after hostOps1 (W2 m c) (Proc.devRef .tc main_v8) = _
  after_results
  rfl
theorem V3_v9 (c : Dev nD) :
    @Eq (S1x1024.Idx → EReal) (V3 m c main_v9) (shapeCast S1x1024 (W2 m c (Proc.devRef .tc main_arg4) : S1024.Idx → EReal) shapeCasts_S1024_S1x1024) := by
  show StableHlo.after hostOps1 (W2 m c) (Proc.devRef .tc main_v9) = _
  after_results
  rfl
theorem V3_v8_apply (c : Dev nD) (e : Fin 1024) :
    @Eq EReal (V3 m c main_v8 (ix2 (0 : Fin 1) e)) ((m ((c : Thread nD τ).loc main_arg3) : S1024.Idx → EReal) (ix1 e)) := by
  refine (congrFun (V3_v8 m c) (ix2 (0 : Fin 1) e)).trans ?_
  refine (shapeCast_a_1a_apply _ shapeCasts_S1024_S1x1024 0 e).trans ?_
  exact congrFun (W2_arg3 m c) (ix1 e)
theorem V3_v9_apply (c : Dev nD) (e : Fin 1024) :
    @Eq EReal (V3 m c main_v9 (ix2 (0 : Fin 1) e)) ((m ((c : Thread nD τ).loc main_arg4) : S1024.Idx → EReal) (ix1 e)) := by
  refine (congrFun (V3_v9 m c) (ix2 (0 : Fin 1) e)).trans ?_
  refine (shapeCast_a_1a_apply _ shapeCasts_S1024_S1x1024 0 e).trans ?_
  exact congrFun (W2_arg4 m c) (ix1 e)

/-- The circular padding: the last 32 rows, the whole array, the first 32 rows, joined along the sequence axis. -/
def padded (Y : S4x4096x1024.Idx → EReal) : S4x4160x1024.Idx → EReal :=
  concatenate S4x4160x1024 1 [⟨S4x32x1024, extractStridedSlice S4x32x1024 ![0, 4064, 0] Y slices_S4x4096x1024_S4x32x1024_0_4064_0⟩,
    ⟨S4x4096x1024, Y⟩, ⟨S4x32x1024, extractStridedSlice S4x32x1024 ![0, 0, 0] Y slices_S4x4096x1024_S4x32x1024_0_0_0⟩]
    concatenates_S4x32x1024_S4x4096x1024_S4x32x1024_S4x4160x1024_d1

theorem V3_v7 (c : Dev nD) : @Eq (S4x4160x1024.Idx → EReal) (V3 m c main_v7) (padded (W2 m c (Proc.devRef .tc main_v4))) := by
  show StableHlo.after hostOps1 (W2 m c) (Proc.devRef .tc main_v7) = _
  after_results
  rfl

/-- Row p of the padded array is row (p + 4064) mod 4096 of the array. -/
theorem padded_apply (Y : S4x4096x1024.Idx → EReal) (b : Fin 4) (p : Fin 4160) (e : Fin 1024) :
    padded Y (ix3 b p e) = Y (ix3 b (⟨(p.val + 4064) % 4096, Nat.mod_lt _ (by norm_num)⟩ : Fin 4096) e) := by
  have hp := p.isLt
  unfold padded
  by_cases h1 : p.val < 32
  · refine (concatenate_apply_piece (α := EReal) (t := S4x4160x1024) (1 : Fin 3) [⟨S4x32x1024, extractStridedSlice S4x32x1024 ![0, 4064, 0] Y slices_S4x4096x1024_S4x32x1024_0_4064_0⟩, ⟨S4x4096x1024, Y⟩, ⟨S4x32x1024, extractStridedSlice S4x32x1024 ![0, 0, 0] Y slices_S4x4096x1024_S4x32x1024_0_0_0⟩]
      concatenates_S4x32x1024_S4x4096x1024_S4x32x1024_S4x4160x1024_d1 (ix3 b p e) 0 (by show (0 : ℕ) < 3; omega)
      S4x32x1024 _ rfl rfl 0 rfl (ix3 b (⟨p.val, h1⟩ : Fin 32) e) (fun ax hax => by
        match ax with
        | ⟨0, _⟩ => rfl
        | ⟨1, _⟩ => exact absurd rfl hax
        | ⟨2, _⟩ => rfl) (by show 0 + p.val = p.val; omega)).trans ?_
    exact slice3_axis1_apply 4064 Y slices_S4x4096x1024_S4x32x1024_0_4064_0 b (⟨p.val, h1⟩ : Fin 32) e _ (by
      show (p.val + 4064) % 4096 = 4064 + p.val; omega)
  · by_cases h2 : p.val < 4128
    · refine (concatenate_apply_piece (α := EReal) (t := S4x4160x1024) (1 : Fin 3) [⟨S4x32x1024, extractStridedSlice S4x32x1024 ![0, 4064, 0] Y slices_S4x4096x1024_S4x32x1024_0_4064_0⟩, ⟨S4x4096x1024, Y⟩, ⟨S4x32x1024, extractStridedSlice S4x32x1024 ![0, 0, 0] Y slices_S4x4096x1024_S4x32x1024_0_0_0⟩]
      concatenates_S4x32x1024_S4x4096x1024_S4x32x1024_S4x4160x1024_d1 (ix3 b p e) 1 (by show (1 : ℕ) < 3; omega)
        S4x4096x1024 Y rfl rfl 32 rfl (ix3 b (⟨p.val - 32, by omega⟩ : Fin 4096) e) (fun ax hax => by
          match ax with
          | ⟨0, _⟩ => rfl
          | ⟨1, _⟩ => exact absurd rfl hax
          | ⟨2, _⟩ => rfl) (by show 32 + (p.val - 32) = p.val; omega)).trans ?_
      refine congrArg Y (congrArg (fun z => ix3 b z e) (Fin.ext ?_))
      show p.val - 32 = (p.val + 4064) % 4096; omega
    · refine (concatenate_apply_piece (α := EReal) (t := S4x4160x1024) (1 : Fin 3) [⟨S4x32x1024, extractStridedSlice S4x32x1024 ![0, 4064, 0] Y slices_S4x4096x1024_S4x32x1024_0_4064_0⟩, ⟨S4x4096x1024, Y⟩, ⟨S4x32x1024, extractStridedSlice S4x32x1024 ![0, 0, 0] Y slices_S4x4096x1024_S4x32x1024_0_0_0⟩]
      concatenates_S4x32x1024_S4x4096x1024_S4x32x1024_S4x4160x1024_d1 (ix3 b p e) 2 (by show (2 : ℕ) < 3; omega)
        S4x32x1024 _ rfl rfl 4128 rfl (ix3 b (⟨p.val - 4128, by omega⟩ : Fin 32) e) (fun ax hax => by
          match ax with
          | ⟨0, _⟩ => rfl
          | ⟨1, _⟩ => exact absurd rfl hax
          | ⟨2, _⟩ => rfl) (by show 4128 + (p.val - 4128) = p.val; omega)).trans ?_
      exact slice3_axis1_apply 0 Y slices_S4x4096x1024_S4x32x1024_0_0_0 b (⟨p.val - 4128, by omega⟩ : Fin 32) e _ (by
        show (p.val + 4064) % 4096 = 0 + (p.val - 4128); omega)

/-- The padded row tap `g` reads is the projection's row of the tap. -/
theorem pad_tap (g : Fin 9) (l : Fin 4096) :
    (⟨((padRow g l).val + 4064) % 4096, Nat.mod_lt _ (by norm_num)⟩ : Fin 4096) = tapRow g l := by
  have hl := l.isLt
  refine Fin.ext ?_
  show (l.val + winOff g + 4064) % 4096 = (l.val + tapOff g) % 4096
  fin_cases g <;> simp [winOff, tapOff] <;> omega

/-! ## The result -/

/-- THE KERNEL PROGRAM'S RESULT ARRAY is the spec's result of the argument arrays. -/
theorem W4_v10 (c : Dev nD) :
    W4 m c (Proc.devRef .tc main_v10)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W4_arr m c 4).trans ((mixFinal (V3 m) c).trans ?_)
  funext i
  obtain ⟨b, l, d, rfl⟩ : ∃ (b : Fin 4) (l : Fin 4096) (d : Fin 1024), i = ix3 b l d := ⟨i 0, i 1, i 2, eq_ix3 i⟩
  show mixAt (V3 m c main_arg0) (V3 m c main_v3) (V3 m c main_v7) (V3 m c main_v8) (V3 m c main_v9) b l d = resultAt _ _ _ _ _ b l d
  unfold mixAt resultAt
  refine lnorm_congr (funext fun e => ?_) (funext fun e => V3_v8_apply m c e) (funext fun e => V3_v9_apply m c e) rfl
  unfold mixed gate
  refine Finset.sum_congr rfl fun g _ => ?_
  have hP : @Eq EReal (V3 m c main_v7 (ix3 b (padRow g l) e))
      (proj (m ((c : Thread nD τ).loc main_arg0)) (m ((c : Thread nD τ).loc main_arg2)) b (tapRow g l) e) := by
    refine (congrFun (V3_v7 m c) (ix3 b (padRow g l) e)).trans ?_
    rw [padded_apply, pad_tap]
    exact W2_v4_apply m c b (tapRow g l) e
  refine congr (congrArg HMul.hMul hP) (congrArg Ideal.logistic (Finset.sum_congr rfl fun k _ => ?_))
  rw [V3_arg0, V3_v3]
  exact congrArg (HMul.hMul (α := EReal) (β := EReal) (γ := EReal) _) (V1_v3_apply m c k (gateCol g e))

end Cert.KernelIdeal.Hand

end
-- ==== Proof.LibRoll.lean ====
/-
  A circular roll along the middle axis of a rank-3 array, as `jnp.roll` lowers it: two slices of one source joined
  along that axis, the first of n rows read from the source at row offset m, the second of m rows read from row 0,
  n + m the axis length. Read at (b, l, c) the join is the source at row (l + m) mod (n + m): rows l < n fall in the first
  piece (source row m + l), rows l ≥ n in the second (source row l − n).
-/
import Idealize.ShloMosaic.Lib.Pipeline.Value
import Idealize.ShloMosaic.Lib.ValueIdx

noncomputable section

namespace Cert.Lib.Roll

open Idealize.ShloMosaic Idealize.ShloMosaic.ValueIdx

variable {α : Type}

/-- Two slices of `Y` joined along axis 1 — `A` reading `Y` at row `m + j`, `B` at row `j` — read at `(b, l, c)`:
    `Y` at row `(l + m) % N`. -/
theorem roll_pair_apply {P N n m C : ℕ} (hnm : n + m = N)
    (Y : (⟨3, ![P, N, C]⟩ : Shape).Idx → α) (A : (⟨3, ![P, n, C]⟩ : Shape).Idx → α) (B : (⟨3, ![P, m, C]⟩ : Shape).Idx → α)
    (hA : ∀ (b : Fin P) (j : Fin n) (c : Fin C), A (ix3 b j c) = Y (ix3 b (⟨m + j.val, by have := j.isLt; omega⟩ : Fin N) c))
    (hB : ∀ (b : Fin P) (j : Fin m) (c : Fin C), B (ix3 b j c) = Y (ix3 b (⟨j.val, by have := j.isLt; omega⟩ : Fin N) c))
    (h : Shape.Concatenates [(⟨3, ![P, n, C]⟩ : Shape), (⟨3, ![P, m, C]⟩ : Shape)] (⟨3, ![P, N, C]⟩ : Shape) (1 : Fin 3))
    (b : Fin P) (l : Fin N) (c : Fin C) :
    concatenate (⟨3, ![P, N, C]⟩ : Shape) (1 : Fin 3) [⟨(⟨3, ![P, n, C]⟩ : Shape), A⟩, ⟨(⟨3, ![P, m, C]⟩ : Shape), B⟩] h (ix3 b l c)
      = Y (ix3 b (⟨(l.val + m) % N, Nat.mod_lt _ (by have := l.isLt; omega)⟩ : Fin N) c) := by
  have hl := l.isLt
  by_cases hln : l.val < n
  · rw [concatenate_pair_apply_left (1 : Fin 3) A B h (ix3 b l c) rfl (ix3 b (⟨l.val, hln⟩ : Fin n) c)
      (fun ax => by match ax with | ⟨0, _⟩ => rfl | ⟨1, _⟩ => rfl | ⟨2, _⟩ => rfl), hA]
    refine congrArg Y (congrArg (fun z => ix3 b z c) (Fin.ext ?_))
    show m + l.val = (l.val + m) % N
    rw [Nat.mod_eq_of_lt (by omega)]; omega
  · have hge : n ≤ l.val := Nat.le_of_not_lt hln
    rw [concatenate_pair_apply_right (1 : Fin 3) A B h (ix3 b l c) rfl rfl (ix3 b (⟨l.val - n, by omega⟩ : Fin m) c)
      (fun ax hax => by
        match ax with
        | ⟨0, _⟩ => rfl
        | ⟨1, _⟩ => exact absurd rfl hax
        | ⟨2, _⟩ => rfl)
      (by show (l.val - n) + n = l.val; omega), hB]
    refine congrArg Y (congrArg (fun z => ix3 b z c) (Fin.ext ?_))
    show l.val - n = (l.val + m) % N
    have e : l.val + m = (l.val - n) + N := by omega
    rw [e, Nat.add_mod_right, Nat.mod_eq_of_lt (by omega)]

end Cert.Lib.Roll

end
-- ==== Proof.RefMixed.lean ====
/-
  The reference's mix, read at an index over the extended reals. Its projection is one contraction; each of its eight
  rolls is two slices of the projection joined along the sequence axis, so at row l it reads the projection at row
  (l + o_g) mod 4096; the nine arrays are stacked along a new axis and multiplied by the gates — the logistic, spelt
  1 / (1 + exp (−z)), of a second contraction, reshaped so that tap g takes columns [1024 g, 1024 g + 1024) —; the sum
  over the stacking axis, started from zero, is the spec's mix.
-/
import proofs.«120279_j30434138259751_2_alg».proof.Proof.Gen.ReferenceIdeal.Read
import proofs.«120279_j30434138259751_2_alg».proof.Proof.MixSpec
import proofs.«120279_j30434138259751_2_alg».proof.Proof.LibRoll
import Idealize.ShloMosaic.Lib.IdealHost

set_option maxRecDepth 16384

noncomputable section

namespace Cert.ReferenceIdeal.RefValue

open Cert.ReferenceIdeal Cert.ReferenceIdeal.Gen Cert.ReferenceIdeal.Read Cert.Mix Cert.Lib.Roll
open Idealize.ShloMosaic Idealize.ShloMosaic.ValueIdx
open scoped BigOperators

/-! ## The projection and the rolls -/

theorem projRef (x0 : (⟨S4x4096x1024, .f32⟩ : BufTy).Contents (Elt Ideal)) (x2 : (⟨S1024x1024, .f32⟩ : BufTy).Contents (Elt Ideal))
    (b : Fin 4) (l : Fin 4096) (e : Fin 1024) :
    val_main_v0 (F := Ideal) x0 x2 (ix3 b l e) = proj x0 x2 b l e := by
  rw [val_main_v0_apply]
  unfold proj
  refine Finset.sum_congr rfl fun k _ => ?_
  have el : lidx_main_v0 (ix3 b l e) k = ix3 b l k := funext fun a => Fin.ext (by
    match a with
    | ⟨0, _⟩ => rfl
    | ⟨1, _⟩ => rfl
    | ⟨2, _⟩ => rfl)
  have er : ridx_main_v0 (ix3 b l e) k = ix2 e k := funext fun a => Fin.ext (by
    match a with
    | ⟨0, _⟩ => rfl
    | ⟨1, _⟩ => rfl)
  rw [el, er]

theorem roll1 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v1 (F := Ideal) x0 x2 (ix3 b l d) = val_main_v0 (F := Ideal) x0 x2 (ix3 b (tapRow 1 l) d) := by
  unfold val_main_v1
  exact roll_pair_apply (P := 4) (N := 4096) (n := 32) (m := 4064) (C := 1024) rfl (val_main_v0 (F := Ideal) x0 x2) _ _
    (fun b j c => (val_main_call0_v0_apply x0 x2 (ix3 b j c)).trans (congrArg _ (funext fun a => Fin.ext (by
      match a with
      | ⟨0, _⟩ => rfl
      | ⟨1, _⟩ => rfl
      | ⟨2, _⟩ => rfl))))
    (fun b j c => (val_main_call0_v1_apply x0 x2 (ix3 b j c)).trans (congrArg _ (funext fun a => Fin.ext (by
      match a with
      | ⟨0, _⟩ => rfl
      | ⟨1, _⟩ => rfl
      | ⟨2, _⟩ => rfl))))
    concatenates_S4x32x1024_S4x4064x1024_S4x4096x1024_d1 b l d

theorem roll2 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v2 (F := Ideal) x0 x2 (ix3 b l d) = val_main_v0 (F := Ideal) x0 x2 (ix3 b (tapRow 2 l) d) := by
  unfold val_main_v2
  exact roll_pair_apply (P := 4) (N := 4096) (n := 16) (m := 4080) (C := 1024) rfl (val_main_v0 (F := Ideal) x0 x2) _ _
    (fun b j c => (val_main_call1_v0_apply x0 x2 (ix3 b j c)).trans (congrArg _ (funext fun a => Fin.ext (by
      match a with
      | ⟨0, _⟩ => rfl
      | ⟨1, _⟩ => rfl
      | ⟨2, _⟩ => rfl))))
    (fun b j c => (val_main_call1_v1_apply x0 x2 (ix3 b j c)).trans (congrArg _ (funext fun a => Fin.ext (by
      match a with
      | ⟨0, _⟩ => rfl
      | ⟨1, _⟩ => rfl
      | ⟨2, _⟩ => rfl))))
    concatenates_S4x16x1024_S4x4080x1024_S4x4096x1024_d1 b l d

theorem roll3 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v3 (F := Ideal) x0 x2 (ix3 b l d) = val_main_v0 (F := Ideal) x0 x2 (ix3 b (tapRow 3 l) d) := by
  unfold val_main_v3
  exact roll_pair_apply (P := 4) (N := 4096) (n := 4) (m := 4092) (C := 1024) rfl (val_main_v0 (F := Ideal) x0 x2) _ _
    (fun b j c => (val_main_call2_v0_apply x0 x2 (ix3 b j c)).trans (congrArg _ (funext fun a => Fin.ext (by
      match a with
      | ⟨0, _⟩ => rfl
      | ⟨1, _⟩ => rfl
      | ⟨2, _⟩ => rfl))))
    (fun b j c => (val_main_call2_v1_apply x0 x2 (ix3 b j c)).trans (congrArg _ (funext fun a => Fin.ext (by
      match a with
      | ⟨0, _⟩ => rfl
      | ⟨1, _⟩ => rfl
      | ⟨2, _⟩ => rfl))))
    concatenates_S4x4x1024_S4x4092x1024_S4x4096x1024_d1 b l d

theorem roll4 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v4 (F := Ideal) x0 x2 (ix3 b l d) = val_main_v0 (F := Ideal) x0 x2 (ix3 b (tapRow 4 l) d) := by
  unfold val_main_v4
  exact roll_pair_apply (P := 4) (N := 4096) (n := 1) (m := 4095) (C := 1024) rfl (val_main_v0 (F := Ideal) x0 x2) _ _
    (fun b j c => (val_main_call3_v0_apply x0 x2 (ix3 b j c)).trans (congrArg _ (funext fun a => Fin.ext (by
      match a with
      | ⟨0, _⟩ => rfl
      | ⟨1, _⟩ => rfl
      | ⟨2, _⟩ => rfl))))
    (fun b j c => (val_main_call3_v1_apply x0 x2 (ix3 b j c)).trans (congrArg _ (funext fun a => Fin.ext (by
      match a with
      | ⟨0, _⟩ => rfl
      | ⟨1, _⟩ => rfl
      | ⟨2, _⟩ => rfl))))
    concatenates_S4x1x1024_S4x4095x1024_S4x4096x1024_d1 b l d

theorem roll5 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v5 (F := Ideal) x0 x2 (ix3 b l d) = val_main_v0 (F := Ideal) x0 x2 (ix3 b (tapRow 5 l) d) := by
  unfold val_main_v5
  exact roll_pair_apply (P := 4) (N := 4096) (n := 4095) (m := 1) (C := 1024) rfl (val_main_v0 (F := Ideal) x0 x2) _ _
    (fun b j c => (val_main_call4_v0_apply x0 x2 (ix3 b j c)).trans (congrArg _ (funext fun a => Fin.ext (by
      match a with
      | ⟨0, _⟩ => rfl
      | ⟨1, _⟩ => rfl
      | ⟨2, _⟩ => rfl))))
    (fun b j c => (val_main_call4_v1_apply x0 x2 (ix3 b j c)).trans (congrArg _ (funext fun a => Fin.ext (by
      match a with
      | ⟨0, _⟩ => rfl
      | ⟨1, _⟩ => rfl
      | ⟨2, _⟩ => rfl))))
    concatenates_S4x4095x1024_S4x1x1024_S4x4096x1024_d1 b l d

theorem roll6 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v6 (F := Ideal) x0 x2 (ix3 b l d) = val_main_v0 (F := Ideal) x0 x2 (ix3 b (tapRow 6 l) d) := by
  unfold val_main_v6
  exact roll_pair_apply (P := 4) (N := 4096) (n := 4092) (m := 4) (C := 1024) rfl (val_main_v0 (F := Ideal) x0 x2) _ _
    (fun b j c => (val_main_call5_v0_apply x0 x2 (ix3 b j c)).trans (congrArg _ (funext fun a => Fin.ext (by
      match a with
      | ⟨0, _⟩ => rfl
      | ⟨1, _⟩ => rfl
      | ⟨2, _⟩ => rfl))))
    (fun b j c => (val_main_call5_v1_apply x0 x2 (ix3 b j c)).trans (congrArg _ (funext fun a => Fin.ext (by
      match a with
      | ⟨0, _⟩ => rfl
      | ⟨1, _⟩ => rfl
      | ⟨2, _⟩ => rfl))))
    concatenates_S4x4092x1024_S4x4x1024_S4x4096x1024_d1 b l d

theorem roll7 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v7 (F := Ideal) x0 x2 (ix3 b l d) = val_main_v0 (F := Ideal) x0 x2 (ix3 b (tapRow 7 l) d) := by
  unfold val_main_v7
  exact roll_pair_apply (P := 4) (N := 4096) (n := 4080) (m := 16) (C := 1024) rfl (val_main_v0 (F := Ideal) x0 x2) _ _
    (fun b j c => (val_main_call6_v0_apply x0 x2 (ix3 b j c)).trans (congrArg _ (funext fun a => Fin.ext (by
      match a with
      | ⟨0, _⟩ => rfl
      | ⟨1, _⟩ => rfl
      | ⟨2, _⟩ => rfl))))
    (fun b j c => (val_main_call6_v1_apply x0 x2 (ix3 b j c)).trans (congrArg _ (funext fun a => Fin.ext (by
      match a with
      | ⟨0, _⟩ => rfl
      | ⟨1, _⟩ => rfl
      | ⟨2, _⟩ => rfl))))
    concatenates_S4x4080x1024_S4x16x1024_S4x4096x1024_d1 b l d

theorem roll8 (x0 : (⟨S4x4096x1024, .f32⟩ : BufTy).Contents (Elt Ideal)) (x2 : (⟨S1024x1024, .f32⟩ : BufTy).Contents (Elt Ideal))
    (b : Fin 4) (l : Fin 4096) (d : Fin 1024) :
    val_main_v8 (F := Ideal) x0 x2 (ix3 b l d) = val_main_v0 (F := Ideal) x0 x2 (ix3 b (tapRow 8 l) d) := by
  unfold val_main_v8
  exact roll_pair_apply (P := 4) (N := 4096) (n := 4064) (m := 32) (C := 1024) rfl (val_main_v0 (F := Ideal) x0 x2) _ _
    (fun b j c => (val_main_call7_v0_apply x0 x2 (ix3 b j c)).trans (congrArg _ (funext fun a => Fin.ext (by
      match a with
      | ⟨0, _⟩ => rfl
      | ⟨1, _⟩ => rfl
      | ⟨2, _⟩ => rfl))))
    (fun b j c => (val_main_call7_v1_apply x0 x2 (ix3 b j c)).trans (congrArg _ (funext fun a => Fin.ext (by
      match a with
      | ⟨0, _⟩ => rfl
      | ⟨1, _⟩ => rfl
      | ⟨2, _⟩ => rfl))))
    concatenates_S4x4064x1024_S4x32x1024_S4x4096x1024_d1 b l d

set_option maxHeartbeats 1600000 in
/-- The stacked array at tap g is the projection at the tap's row. -/
theorem stacked_apply (x0 : (⟨S4x4096x1024, .f32⟩ : BufTy).Contents (Elt Ideal)) (x2 : (⟨S1024x1024, .f32⟩ : BufTy).Contents (Elt Ideal))
    (b : Fin 4) (l : Fin 4096) (g : Fin 9) (d : Fin 1024) :
    val_main_v18 (F := Ideal) x0 x2 (ix4 b l g d) = val_main_v0 (F := Ideal) x0 x2 (ix3 b (tapRow g l) d) := by
  unfold val_main_v18
  match g with
  | ⟨0, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨0, by decide⟩ : Fin 9) d) 0 (by show (0 : ℕ) < 9; omega) S4x4096x1x1024 (val_main_v9 (F := Ideal) x0 x2) rfl rfl 0 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v9_apply x0 x2 _).trans ?_
    refine congrArg (val_main_v0 (F := Ideal) x0 x2) (funext fun a => Fin.ext ?_)
    match a with
    | ⟨0, _⟩ => rfl
    | ⟨1, _⟩ => exact (Nat.mod_eq_of_lt l.isLt).symm
    | ⟨2, _⟩ => rfl
  | ⟨1, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨1, by decide⟩ : Fin 9) d) 1 (by show (1 : ℕ) < 9; omega) S4x4096x1x1024 (val_main_v10 (F := Ideal) x0 x2) rfl rfl 1 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v10_apply x0 x2 _).trans ?_
    exact (congrArg (val_main_v1 (F := Ideal) x0 x2) (funext fun a => Fin.ext (by
      match a with
      | ⟨0, _⟩ => rfl
      | ⟨1, _⟩ => rfl
      | ⟨2, _⟩ => rfl))).trans (roll1 x0 x2 b l d)
  | ⟨2, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨2, by decide⟩ : Fin 9) d) 2 (by show (2 : ℕ) < 9; omega) S4x4096x1x1024 (val_main_v11 (F := Ideal) x0 x2) rfl rfl 2 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v11_apply x0 x2 _).trans ?_
    exact (congrArg (val_main_v2 (F := Ideal) x0 x2) (funext fun a => Fin.ext (by
      match a with
      | ⟨0, _⟩ => rfl
      | ⟨1, _⟩ => rfl
      | ⟨2, _⟩ => rfl))).trans (roll2 x0 x2 b l d)
  | ⟨3, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨3, by decide⟩ : Fin 9) d) 3 (by show (3 : ℕ) < 9; omega) S4x4096x1x1024 (val_main_v12 (F := Ideal) x0 x2) rfl rfl 3 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v12_apply x0 x2 _).trans ?_
    exact (congrArg (val_main_v3 (F := Ideal) x0 x2) (funext fun a => Fin.ext (by
      match a with
      | ⟨0, _⟩ => rfl
      | ⟨1, _⟩ => rfl
      | ⟨2, _⟩ => rfl))).trans (roll3 x0 x2 b l d)
  | ⟨4, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨4, by decide⟩ : Fin 9) d) 4 (by show (4 : ℕ) < 9; omega) S4x4096x1x1024 (val_main_v13 (F := Ideal) x0 x2) rfl rfl 4 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v13_apply x0 x2 _).trans ?_
    exact (congrArg (val_main_v4 (F := Ideal) x0 x2) (funext fun a => Fin.ext (by
      match a with
      | ⟨0, _⟩ => rfl
      | ⟨1, _⟩ => rfl
      | ⟨2, _⟩ => rfl))).trans (roll4 x0 x2 b l d)
  | ⟨5, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨5, by decide⟩ : Fin 9) d) 5 (by show (5 : ℕ) < 9; omega) S4x4096x1x1024 (val_main_v14 (F := Ideal) x0 x2) rfl rfl 5 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v14_apply x0 x2 _).trans ?_
    exact (congrArg (val_main_v5 (F := Ideal) x0 x2) (funext fun a => Fin.ext (by
      match a with
      | ⟨0, _⟩ => rfl
      | ⟨1, _⟩ => rfl
      | ⟨2, _⟩ => rfl))).trans (roll5 x0 x2 b l d)
  | ⟨6, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨6, by decide⟩ : Fin 9) d) 6 (by show (6 : ℕ) < 9; omega) S4x4096x1x1024 (val_main_v15 (F := Ideal) x0 x2) rfl rfl 6 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v15_apply x0 x2 _).trans ?_
    exact (congrArg (val_main_v6 (F := Ideal) x0 x2) (funext fun a => Fin.ext (by
      match a with
      | ⟨0, _⟩ => rfl
      | ⟨1, _⟩ => rfl
      | ⟨2, _⟩ => rfl))).trans (roll6 x0 x2 b l d)
  | ⟨7, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨7, by decide⟩ : Fin 9) d) 7 (by show (7 : ℕ) < 9; omega) S4x4096x1x1024 (val_main_v16 (F := Ideal) x0 x2) rfl rfl 7 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v16_apply x0 x2 _).trans ?_
    exact (congrArg (val_main_v7 (F := Ideal) x0 x2) (funext fun a => Fin.ext (by
      match a with
      | ⟨0, _⟩ => rfl
      | ⟨1, _⟩ => rfl
      | ⟨2, _⟩ => rfl))).trans (roll7 x0 x2 b l d)
  | ⟨8, _⟩ =>
    refine (concatenate_apply_piece (α := EReal) (t := S4x4096x9x1024) (2 : Fin 4) [⟨S4x4096x1x1024, val_main_v9 (F := Ideal) x0 x2⟩, ⟨S4x4096x1x1024, val_main_v10 (F := Ideal) x0 x2⟩, ⟨S4x4096x1x1024, val_main_v11 (F := Ideal) x0 x2⟩, ⟨S4x4096x1x1024, val_main_v12 (F := Ideal) x0 x2⟩, ⟨S4x4096x1x1024, val_main_v13 (F := Ideal) x0 x2⟩, ⟨S4x4096x1x1024, val_main_v14 (F := Ideal) x0 x2⟩, ⟨S4x4096x1x1024, val_main_v15 (F := Ideal) x0 x2⟩, ⟨S4x4096x1x1024, val_main_v16 (F := Ideal) x0 x2⟩, ⟨S4x4096x1x1024, val_main_v17 (F := Ideal) x0 x2⟩]
      concatenates_S4x4096x1x1024_S4x4096x1x1024_S4x4096x1x1024_S4x4096x1x1024_S4x4096x1x1024_S4x4096x1x1024_S4x4096x1x1024_S4x4096x1x1024_S4x4096x1x1024_S4x4096x9x1024_d2
      (ix4 b l (⟨8, by decide⟩ : Fin 9) d) 8 (by show (8 : ℕ) < 9; omega) S4x4096x1x1024 (val_main_v17 (F := Ideal) x0 x2) rfl rfl 8 rfl
      (ix4 b l (0 : Fin 1) d) (fun ax hax => by
        match ax with
        | ⟨0, _⟩ => rfl
        | ⟨1, _⟩ => rfl
        | ⟨2, _⟩ => exact absurd rfl hax
        | ⟨3, _⟩ => rfl) rfl).trans ?_
    refine (val_main_v17_apply x0 x2 _).trans ?_
    exact (congrArg (val_main_v8 (F := Ideal) x0 x2) (funext fun a => Fin.ext (by
      match a with
      | ⟨0, _⟩ => rfl
      | ⟨1, _⟩ => rfl
      | ⟨2, _⟩ => rfl))).trans (roll8 x0 x2 b l d)

/-! ## The gates -/

theorem gateRef (x0 : (⟨S4x4096x1024, .f32⟩ : BufTy).Contents (Elt Ideal)) (x1 : (⟨S9216x1024, .f32⟩ : BufTy).Contents (Elt Ideal))
    (b : Fin 4) (l : Fin 4096) (j : Fin 9216) :
    val_main_v25 (F := Ideal) x0 x1 (ix3 b l j) = gate x0 x1 b l j := by
  rw [val_main_v25_apply, val_main_v24_apply, val_main_v23_apply, val_main_v22_apply, val_main_v21_apply, val_main_v20_apply,
    val_main_v19_apply, val_main_cst_apply, val_main_cst_0_apply]
  unfold gate Ideal.logistic
  simp only [Ideal.hostDivf_def, Ideal.addf_def, Ideal.hostUnary_exp_def, Ideal.hostNegf_def, Ideal.negf_def, Ideal.ofBits_def, Ideal.ofBits_one_f32]
  refine congrArg (fun z => Ideal.div 1 (1 + Ideal.exp (-z))) (Finset.sum_congr rfl fun k _ => ?_)
  have el : lidx_main_v19 (ix3 b l j) k = ix3 b l k := funext fun a => Fin.ext (by
    match a with
    | ⟨0, _⟩ => rfl
    | ⟨1, _⟩ => rfl
    | ⟨2, _⟩ => rfl)
  have er : ridx_main_v19 (ix3 b l j) k = ix2 j k := funext fun a => Fin.ext (by
    match a with
    | ⟨0, _⟩ => rfl
    | ⟨1, _⟩ => rfl)
  rw [el, er]

theorem gatesRef (x0 : (⟨S4x4096x1024, .f32⟩ : BufTy).Contents (Elt Ideal)) (x1 : (⟨S9216x1024, .f32⟩ : BufTy).Contents (Elt Ideal))
    (b : Fin 4) (l : Fin 4096) (g : Fin 9) (d : Fin 1024) :
    val_main_v26 (F := Ideal) x0 x1 (ix4 b l g d) = gate x0 x1 b l (gateCol g d) := by
  rw [val_main_v26_apply]
  have hb := b.isLt
  have hl := l.isLt
  have hg := g.isLt
  have hd := d.isLt
  have ei : idx_main_v26 (ix4 b l g d) = ix3 b l (gateCol g d) := funext fun a => Fin.ext (by
    match a with
    | ⟨0, _⟩ => show (((b.val * 4096 + l.val) * 9 + g.val) * 1024 + d.val) / 37748736 = b.val; omega
    | ⟨1, _⟩ => show (((b.val * 4096 + l.val) * 9 + g.val) * 1024 + d.val) / 9216 % 4096 = l.val; omega
    | ⟨2, _⟩ => show (((b.val * 4096 + l.val) * 9 + g.val) * 1024 + d.val) % 9216 = 1024 * g.val + d.val; omega)
  rw [ei, gateRef]

/-! ## The mix -/

/-- THE REFERENCE'S MIX AT AN INDEX. -/
theorem mixedRef (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (b : Fin 4) (l : Fin 4096) (d : Fin 1024) :
    val_main_v28 (F := Ideal) x0 x1 x2 (ix3 b l d) = mixed x0 x1 x2 b l d := by
  rw [val_main_v28_apply, val_main_cst_1_apply]
  unfold mixed
  simp only [Ideal.ofBits_def, Ideal.ofBits_zero_f32, zero_add]
  refine Finset.sum_congr rfl fun g _ => ?_
  have ei : idx_main_v28 (ix3 b l d) g = ix4 b l g d := funext fun a => Fin.ext (by
    match a with
    | ⟨0, _⟩ => rfl
    | ⟨1, _⟩ => rfl
    | ⟨2, _⟩ => rfl
    | ⟨3, _⟩ => rfl)
  rw [ei, val_main_v27_apply, stacked_apply, gatesRef, projRef]
  rfl

end Cert.ReferenceIdeal.RefValue

end
-- ==== Proof.RefValue.lean ====
/-
  The reference's LayerNorm, read at an index over the extended reals: the row mean is a sum over the channel axis
  started from zero, kept as a unit column and divided by the row length; the variance likewise of the squared
  deviations; the result is ((a − μ) · rsqrt (σ² + ε)) · γ[d] + β[d] with the scale and shift broadcast over batch and
  sequence. With the mix of the previous module this is the spec's result.
-/
import proofs.«120279_j30434138259751_2_alg».proof.Proof.RefMixed

set_option maxRecDepth 16384

noncomputable section

namespace Cert.ReferenceIdeal.RefValue

open Cert.ReferenceIdeal Cert.ReferenceIdeal.Gen Cert.ReferenceIdeal.Read Cert.Mix
open Idealize.ShloMosaic Idealize.ShloMosaic.ValueIdx
open scoped BigOperators

/-- The mean column. -/
theorem meanRef (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (b : Fin 4) (l : Fin 4096) (u : Fin 1) :
    val_main_v32 (F := Ideal) x0 x1 x2 (ix3 b l u) = rowMean (fun e => mixed x0 x1 x2 b l e) := by
  rw [val_main_v32_apply, val_main_v30_apply, val_main_v29_apply, val_main_v31_apply, val_main_cst_2_apply, val_main_cst_3_apply]
  unfold rowMean rowLen
  simp only [Ideal.hostDivf_def, Ideal.ofBits_def, Ideal.ofBits_zero_f32, zero_add]
  refine congrArg (fun z => Ideal.div z (Ideal.ofBits .f32 0x44800000#32)) (Finset.sum_congr rfl fun k _ => ?_)
  have ei : idx_main_v29 (idx_main_v30 (ix3 b l u)) k = ix3 b l k := funext fun a => Fin.ext (by
    match a with
    | ⟨0, _⟩ => rfl
    | ⟨1, _⟩ => rfl
    | ⟨2, _⟩ => rfl)
  rw [ei, mixedRef]

/-- The centred row (spelt twice in the program: once for the variance, once for the result). -/
theorem cenRef (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (b : Fin 4) (l : Fin 4096) (e : Fin 1024) :
    val_main_v34 (F := Ideal) x0 x1 x2 (ix3 b l e) = mixed x0 x1 x2 b l e - rowMean (fun e => mixed x0 x1 x2 b l e) := by
  rw [val_main_v34_apply, val_main_v33_apply]
  have ei : idx_main_v33 (ix3 b l e) = ix3 b l (0 : Fin 1) := funext fun a => Fin.ext (by
    match a with
    | ⟨0, _⟩ => rfl
    | ⟨1, _⟩ => rfl
    | ⟨2, _⟩ => rfl)
  rw [ei, meanRef, mixedRef]
  rfl

theorem cenRef' (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (b : Fin 4) (l : Fin 4096) (e : Fin 1024) :
    val_main_v41 (F := Ideal) x0 x1 x2 (ix3 b l e) = mixed x0 x1 x2 b l e - rowMean (fun e => mixed x0 x1 x2 b l e) := by
  rw [val_main_v41_apply, val_main_v40_apply]
  have ei : idx_main_v40 (ix3 b l e) = ix3 b l (0 : Fin 1) := funext fun a => Fin.ext (by
    match a with
    | ⟨0, _⟩ => rfl
    | ⟨1, _⟩ => rfl
    | ⟨2, _⟩ => rfl)
  rw [ei, meanRef, mixedRef]
  rfl

/-- The variance column. -/
theorem varRef (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (b : Fin 4) (l : Fin 4096) (u : Fin 1) :
    val_main_v39 (F := Ideal) x0 x1 x2 (ix3 b l u)
      = rowMean (fun e => (mixed x0 x1 x2 b l e - rowMean (fun e => mixed x0 x1 x2 b l e)) * (mixed x0 x1 x2 b l e - rowMean (fun e => mixed x0 x1 x2 b l e))) := by
  rw [val_main_v39_apply, val_main_v37_apply, val_main_v36_apply, val_main_v38_apply, val_main_cst_4_apply, val_main_cst_5_apply]
  unfold rowMean rowLen
  simp only [Ideal.hostDivf_def, Ideal.ofBits_def, Ideal.ofBits_zero_f32, zero_add]
  refine congrArg (fun z => Ideal.div z (Ideal.ofBits .f32 0x44800000#32)) (Finset.sum_congr rfl fun k _ => ?_)
  have ei : idx_main_v36 (idx_main_v37 (ix3 b l u)) k = ix3 b l k := funext fun a => Fin.ext (by
    match a with
    | ⟨0, _⟩ => rfl
    | ⟨1, _⟩ => rfl
    | ⟨2, _⟩ => rfl)
  rw [ei, val_main_v35_apply, cenRef]
  rfl

/-- THE REFERENCE'S RESULT AT AN INDEX. -/
theorem resultRef (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (x3 x4 : (⟨S1024, .f32⟩ : BufTy).Contents (Elt Ideal)) (b : Fin 4) (l : Fin 4096) (d : Fin 1024) :
    val_main_v52 (F := Ideal) x0 x1 x2 x3 x4 (ix3 b l d) = resultAt x0 x1 x2 x3 x4 b l d := by
  rw [val_main_v52_apply, val_main_v49_apply, val_main_v46_apply, val_main_v45_apply, val_main_v44_apply, val_main_v43_apply,
    val_main_v42_apply, val_main_cst_6_apply, val_main_v48_apply, val_main_v47_apply, val_main_v51_apply, val_main_v50_apply]
  have e45 : idx_main_v45 (ix3 b l d) = ix3 b l (0 : Fin 1) := funext fun a => Fin.ext (by
    match a with
    | ⟨0, _⟩ => rfl
    | ⟨1, _⟩ => rfl
    | ⟨2, _⟩ => rfl)
  have e47 : idx_main_v47 (idx_main_v48 (ix3 b l d)) = ix1 d := funext fun a => Fin.ext (by
    match a with
    | ⟨0, _⟩ => rfl)
  have e50 : idx_main_v50 (idx_main_v51 (ix3 b l d)) = ix1 d := funext fun a => Fin.ext (by
    match a with
    | ⟨0, _⟩ => rfl)
  rw [e45, e47, e50, cenRef', varRef]
  unfold resultAt lnorm varEps
  rfl

/-- THE REFERENCE'S RESULT ARRAY is the spec's. -/
theorem result_eq (x0 : (⟨S4x4096x1024, .f32⟩ : BufTy).Contents (Elt Ideal)) (x1 : (⟨S9216x1024, .f32⟩ : BufTy).Contents (Elt Ideal))
    (x2 : (⟨S1024x1024, .f32⟩ : BufTy).Contents (Elt Ideal)) (x3 x4 : (⟨S1024, .f32⟩ : BufTy).Contents (Elt Ideal)) :
    val_main_v52 (F := Ideal) x0 x1 x2 x3 x4 = result x0 x1 x2 x3 x4 := by
  funext i
  obtain ⟨b, l, d, rfl⟩ : ∃ (b : Fin 4) (l : Fin 4096) (d : Fin 1024), i = ix3 b l d := ⟨i 0, i 1, i 2, eq_ix3 i⟩
  rw [resultRef]
  rfl

end Cert.ReferenceIdeal.RefValue

end
-- ==== Proof.lean ====
/-
  Kernel against reference for the gated shift mixer, over the extended reals.

  The kernel program is four segments: the host transposes the two weight matrices; a first kernel call projects the
  activations, v[b, l, e] = Σ_k X[b, l, k] · VW[e, k], block by block; the host pads v circularly by 32 rows at each end of
  the sequence axis and reshapes the scale and shift to rows; a second kernel call, block by block, copies a 320-row
  window of the padded projection into a scratch by a transfer of its own, multiplies nine row-shifted slices of it by the
  gates logistic (Σ_k X[b, l, k] · GW[j, k]), sums the nine products and applies a LayerNorm to each row. The reference
  computes the same projection and gates as two contractions, builds the nine shifted copies by circular rolls, stacks
  and sums them, and applies the same LayerNorm.

  Both results are the spec's `result` of the five argument arrays (Proof/MixSpec.lean): a padded row l + q_g is the
  projection's row (l + o_g) mod 4096, which is the row the g-th roll reads; a running sum of nine products from zero is
  the sum of the nine products commuted (addition and multiplication of extended reals are commutative and associative,
  no distributivity is used, so the inputs' finiteness is never needed); the two LayerNorms are the same operations on
  the same row. The three frames are the runs with the result dropped; the idealization rewrote nothing.
-/
import proofs.«120279_j30434138259751_2_alg».proof.Defs
import proofs.«120279_j30434138259751_2_alg».proof.Proof.Gen.Kernel
import proofs.«120279_j30434138259751_2_alg».proof.Proof.Gen.KernelIdeal
import proofs.«120279_j30434138259751_2_alg».proof.Proof.Gen.ReferenceIdeal
import proofs.«120279_j30434138259751_2_alg».proof.Proof.Gen.ReferenceIdeal.Run
import proofs.«120279_j30434138259751_2_alg».proof.Proof.Gen.ReferenceIdeal.Read
import proofs.«120279_j30434138259751_2_alg».proof.Proof.Gen.Pre_finite_inputs
import proofs.«120279_j30434138259751_2_alg».proof.Proof.KernelRun
import proofs.«120279_j30434138259751_2_alg».proof.Proof.KernelIdealWhole
import proofs.«120279_j30434138259751_2_alg».proof.Proof.RefValue
import Idealize.ShloMosaic.Adequacy
import Idealize.ShloMosaic.Init

noncomputable section

namespace Cert.Proof

open Idealize.ShloMosaic Idealize.ShloMosaic.TcCoe Idealize.SL.Sem

/-- The kernel program at the word level runs to its end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the spec's result of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Mix.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run_all m ρ)
    · exact (h c _ (Cert.KernelIdeal.Hand.mem_uc Cert.KernelIdeal.main_v10 (by decide))).trans (Cert.KernelIdeal.Hand.W4_v10 m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
    · exact (h c _ (Cert.KernelIdeal.Hand.mem_uc Cert.KernelIdeal.main_arg4 (by decide))).trans (Cert.KernelIdeal.Hand.W4_main_arg4 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v52_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
